-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg8 : FVec F S32 .f32) (main_arg9 : FVec F S32x32 .f32) (main_arg10 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg9
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x32 .f32) (main_arg8 : FVec F S32 .f32) (main_arg9 : FVec F S32x32 .f32) (main_arg10 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64x64 .f32) (main_arg6 : FVec F S64 .f32) (main_arg7 : FVec F S64x32 .f32) (main_arg8 : FVec F S32 .f32) (main_arg9 : FVec F S32x32 .f32) (main_arg10 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 176
  | .vmem => 36
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S32x32, .f32⟩
  | 10 => ⟨S32, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S100000, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x64, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x64, .f32⟩
  | 63 => ⟨S1700000x1, .f32⟩
  | 64 => ⟨S1700000x64, .f32⟩
  | 65 => ⟨S1700000x64, .f32⟩
  | 66 => ⟨S_, .f32⟩
  | 67 => ⟨S100000x64, .f32⟩
  | 68 => ⟨S1700000x1, .i32⟩
  | 69 => ⟨S100000x64, .f32⟩
  | 70 => ⟨S1x64, .f32⟩
  | 71 => ⟨S100000x64, .f32⟩
  | 72 => ⟨S_, .f32⟩
  | 73 => ⟨S100000, .f32⟩
  | 74 => ⟨S1700000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S100000x64, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x64, .f32⟩
  | 114 => ⟨S1700000x1, .f32⟩
  | 115 => ⟨S1700000x64, .f32⟩
  | 116 => ⟨S1700000x64, .f32⟩
  | 117 => ⟨S_, .f32⟩
  | 118 => ⟨S100000x64, .f32⟩
  | 119 => ⟨S1700000x1, .i32⟩
  | 120 => ⟨S100000x64, .f32⟩
  | 121 => ⟨S1x64, .f32⟩
  | 122 => ⟨S100000x64, .f32⟩
  | 123 => ⟨S_, .f32⟩
  | 124 => ⟨S100000, .f32⟩
  | 125 => ⟨S1700000x1, .i32⟩
  | 126 => ⟨S100000, .f32⟩
  | 127 => ⟨S_, .f32⟩
  | _ => ⟨S100000x64, .f32⟩

abbrev hbmTy0_1 (i : Nat) : BufTy := match i % 128 with
  | 0 => ⟨S100000, .f32⟩
  | 1 => ⟨S100000, .i1⟩
  | 2 => ⟨S100000, .f32⟩
  | 3 => ⟨S_, .f32⟩
  | 4 => ⟨S_, .f32⟩
  | 5 => ⟨S100000, .f32⟩
  | 6 => ⟨S100000, .f32⟩
  | 7 => ⟨S_, .i32⟩
  | 8 => ⟨S1700000, .i32⟩
  | 9 => ⟨S1700000, .i1⟩
  | 10 => ⟨S_, .i32⟩
  | 11 => ⟨S1700000, .i32⟩
  | 12 => ⟨S1700000, .i32⟩
  | 13 => ⟨S1700000, .i32⟩
  | 14 => ⟨S1700000x1, .i32⟩
  | 15 => ⟨S1700000, .f32⟩
  | 16 => ⟨S1700000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000, .f32⟩
  | 26 => ⟨S1700000, .f32⟩
  | 27 => ⟨S100000x32, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000x32, .f32⟩
  | 37 => ⟨S1700000x1, .f32⟩
  | 38 => ⟨S1700000x32, .f32⟩
  | 39 => ⟨S1700000x32, .f32⟩
  | 40 => ⟨S_, .f32⟩
  | 41 => ⟨S100000x32, .f32⟩
  | 42 => ⟨S1700000x1, .i32⟩
  | 43 => ⟨S100000x32, .f32⟩
  | 44 => ⟨S1x32, .f32⟩
  | 45 => ⟨S100000x32, .f32⟩
  | 46 => ⟨S1x32, .f32⟩
  | 47 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S10000x32, .f32⟩
  | .local _ .vmem, ⟨27, _⟩ => ⟨S1x32, .f32⟩
  | .local _ .vmem, ⟨28, _⟩ => ⟨S10000x32, .f32⟩
  | .local _ .vmem, ⟨29, _⟩ => ⟨S10000x32, .f32⟩
  | .local _ .vmem, ⟨30, _⟩ => ⟨S10000x32, .f32⟩
  | .local _ .vmem, ⟨31, _⟩ => ⟨S10000x32, .f32⟩
  | .local _ .vmem, ⟨32, _⟩ => ⟨S32x32, .f32⟩
  | .local _ .vmem, ⟨33, _⟩ => ⟨S1x32, .f32⟩
  | .local _ .vmem, ⟨34, _⟩ => ⟨S10000x32, .f32⟩
  | .local _ .vmem, ⟨35, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_call1_v0 : Ref sig .tc := ⟨.hbm, 81, rfl⟩
abbrev main_call1_v1 : Ref sig .tc := ⟨.hbm, 82, rfl⟩
abbrev main_v54 : Ref sig .tc := ⟨.hbm, 83, rfl⟩
abbrev main_c_12 : Ref sig .tc := ⟨.hbm, 84, rfl⟩
abbrev main_v55 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_14 : Ref sig .tc := ⟨.hbm, 94, rfl⟩
abbrev main_v63 : Ref sig .tc := ⟨.hbm, 95, rfl⟩
abbrev main_v64 : Ref sig .tc := ⟨.hbm, 96, rfl⟩
abbrev main_c_15 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_16 : Ref sig .tc := ⟨.hbm, 105, rfl⟩
abbrev main_v72 : Ref sig .tc := ⟨.hbm, 106, rfl⟩
abbrev main_v73 : Ref sig .tc := ⟨.hbm, 107, rfl⟩
abbrev main_c_17 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_18 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_19 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_20 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_21 : Ref sig .tc := ⟨.hbm, 131, rfl⟩
abbrev main_call2_v0 : Ref sig .tc := ⟨.hbm, 132, rfl⟩
abbrev main_call2_v1 : Ref sig .tc := ⟨.hbm, 133, rfl⟩
abbrev main_v93 : Ref sig .tc := ⟨.hbm, 134, rfl⟩
abbrev main_c_22 : Ref sig .tc := ⟨.hbm, 135, rfl⟩
abbrev main_v94 : Ref sig .tc := ⟨.hbm, 136, rfl⟩
abbrev main_v95 : Ref sig .tc := ⟨.hbm, 137, rfl⟩
abbrev main_c_23 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_c_24 : Ref sig .tc := ⟨.hbm, 145, rfl⟩
abbrev main_v102 : Ref sig .tc := ⟨.hbm, 146, rfl⟩
abbrev main_v103 : Ref sig .tc := ⟨.hbm, 147, rfl⟩
abbrev main_c_25 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_c_26 : Ref sig .tc := ⟨.hbm, 156, rfl⟩
abbrev main_v111 : Ref sig .tc := ⟨.hbm, 157, rfl⟩
abbrev main_v112 : Ref sig .tc := ⟨.hbm, 158, rfl⟩
abbrev main_c_27 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_28 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S100000x32.size a
  hwx4_2 : ∀ i : grid4.Coords, EltTy.bits .f32 = 32 ∨ (Rect.block (s := S100000x32) S10000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x32.size a ≤ S100000x32.size a
  hwx5_2 : ∀ i : grid5.Coords, EltTy.bits .f32 = 32 ∨ (Rect.block (s := S100000x32) S10000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S100000x32.size a
  hwx6_0 : ∀ i : grid6.Coords, EltTy.bits .f32 = 32 ∨ (Rect.block (s := S100000x32) S10000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x32.size a ≤ S32x32.size a
  hwx6_1 : ∀ i : grid6.Coords, EltTy.bits .f32 = 32 ∨ (Rect.block (s := S32x32) S32x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x32.size a ≤ S100000x32.size a
  hwx6_3 : ∀ i : grid6.Coords, EltTy.bits .f32 = 32 ∨ (Rect.block (s := S100000x32) S10000x32.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v86) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v110) S10000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v123) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v124) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v125) S10000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v125) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v126) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v127) S10000x32.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 187
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S32x32, .f32⟩
  | 10 => ⟨S32, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S100000, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x64, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x64, .f32⟩
  | 63 => ⟨S1700000x1, .f32⟩
  | 64 => ⟨S1700000x64, .f32⟩
  | 65 => ⟨S1700000x64, .f32⟩
  | 66 => ⟨S_, .f32⟩
  | 67 => ⟨S100000x64, .f32⟩
  | 68 => ⟨S1700000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S100000x64, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x64, .f32⟩
  | 118 => ⟨S1700000x1, .f32⟩
  | 119 => ⟨S1700000x64, .f32⟩
  | 120 => ⟨S1700000x64, .f32⟩
  | 121 => ⟨S_, .f32⟩
  | 122 => ⟨S100000x64, .f32⟩
  | 123 => ⟨S1700000x1, .i32⟩
  | 124 => ⟨S100000x64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S_, .f32⟩
  | 1 => ⟨S100000x64, .f32⟩
  | 2 => ⟨S100000x64, .f32⟩
  | 3 => ⟨S_, .f32⟩
  | 4 => ⟨S100000, .f32⟩
  | 5 => ⟨S1700000x1, .i32⟩
  | 6 => ⟨S100000, .f32⟩
  | 7 => ⟨S_, .f32⟩
  | 8 => ⟨S100000, .f32⟩
  | 9 => ⟨S100000, .i1⟩
  | 10 => ⟨S100000, .f32⟩
  | 11 => ⟨S_, .f32⟩
  | 12 => ⟨S_, .f32⟩
  | 13 => ⟨S100000, .f32⟩
  | 14 => ⟨S100000, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1700000, .f32⟩
  | 24 => ⟨S1700000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S1700000, .f32⟩
  | 35 => ⟨S100000x32, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000x32, .f32⟩
  | 45 => ⟨S1700000x1, .f32⟩
  | 46 => ⟨S1700000x32, .f32⟩
  | 47 => ⟨S1700000x32, .f32⟩
  | 48 => ⟨S_, .f32⟩
  | 49 => ⟨S100000x32, .f32⟩
  | 50 => ⟨S1700000x1, .i32⟩
  | 51 => ⟨S100000x32, .f32⟩
  | 52 => ⟨S1x32, .f32⟩
  | 53 => ⟨S100000x32, .f32⟩
  | 54 => ⟨S100000x32, .f32⟩
  | 55 => ⟨S100000x32, .f32⟩
  | 56 => ⟨S1x32, .f32⟩
  | 57 => ⟨S100000x32, .f32⟩
  | 58 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_call2_v0 : Ref sig .tc := ⟨.hbm, 85, rfl⟩
abbrev main_call2_v1 : Ref sig .tc := ⟨.hbm, 86, rfl⟩
abbrev main_v56 : Ref sig .tc := ⟨.hbm, 87, rfl⟩
abbrev main_c_12 : Ref sig .tc := ⟨.hbm, 88, rfl⟩
abbrev main_v57 : Ref sig .tc := ⟨.hbm, 89, rfl⟩
abbrev main_v58 : Ref sig .tc := ⟨.hbm, 90, rfl⟩
abbrev main_c_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_16 : Ref sig .tc := ⟨.hbm, 109, rfl⟩
abbrev main_v74 : Ref sig .tc := ⟨.hbm, 110, rfl⟩
abbrev main_v75 : Ref sig .tc := ⟨.hbm, 111, rfl⟩
abbrev main_c_17 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_18 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_call3_cst : Ref sig .tc := ⟨.hbm, 128, rfl⟩
abbrev main_call3_v0 : Ref sig .tc := ⟨.hbm, 129, rfl⟩
abbrev main_v90 : Ref sig .tc := ⟨.hbm, 130, rfl⟩
abbrev main_cst_19 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_20 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_21 : Ref sig .tc := ⟨.hbm, 139, rfl⟩
abbrev main_call4_v0 : Ref sig .tc := ⟨.hbm, 140, rfl⟩
abbrev main_call4_v1 : Ref sig .tc := ⟨.hbm, 141, rfl⟩
abbrev main_v97 : Ref sig .tc := ⟨.hbm, 142, rfl⟩
abbrev main_c_22 : Ref sig .tc := ⟨.hbm, 143, rfl⟩
abbrev main_v98 : Ref sig .tc := ⟨.hbm, 144, rfl⟩
abbrev main_v99 : Ref sig .tc := ⟨.hbm, 145, rfl⟩
abbrev main_c_23 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_c_24 : Ref sig .tc := ⟨.hbm, 153, rfl⟩
abbrev main_v106 : Ref sig .tc := ⟨.hbm, 154, rfl⟩
abbrev main_v107 : Ref sig .tc := ⟨.hbm, 155, rfl⟩
abbrev main_c_25 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_c_26 : Ref sig .tc := ⟨.hbm, 164, rfl⟩
abbrev main_v115 : Ref sig .tc := ⟨.hbm, 165, rfl⟩
abbrev main_v116 : Ref sig .tc := ⟨.hbm, 166, rfl⟩
abbrev main_c_27 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_28 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x32_S100000x32_1_0_0_1_n_n_wf : DotDims.WF S100000x32 S32x32 S100000x32 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.KernelRun.lean ====
/-
  The idealized kernel's run with its result named.

  @main of the idealized kernel is twenty segments: thirteen stretches of host operations and seven pallas_calls. Run
  from any memory with zero counters, every weakly fair execution terminates without a fault, and the final memory
  holds, at every buffer of a TensorCore that no region scopes, the contents the segments' fold leaves there (`W20`):
  a stretch's operations applied in order, a region's output arrays at what its write-backs leave. Read at the
  result buffer this names the result; read at an argument it is the argument as launched, since nothing writes one.
-/
import proofs.«152764_j53214644797577_1_alg».proof.Proof.Gen.KernelIdeal.Frame

set_option maxRecDepth 16384

noncomputable section

namespace Cert.KernelIdeal.Track

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at what the segments' fold
    leaves there and every argument as launched. -/
theorem run_named : θ_run defs (onTc (τ := τ) (main (F := F))) ⟨m, fun _ => 0, ρ⟩ (fun r => ∀ c : Dev nD,
      r.2.mem ((c.tc : Thread nD τ).loc main_v127) = W20 m ρ c (Proc.devRef .tc main_v127)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v127 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c)⟩)

end Cert.KernelIdeal.Track

end
-- ==== Proof.Args.lean ====
/-
  The eleven argument arrays' types, named once: node features X, the edge index pairs, the edge weights, and the four
  layers' weight matrices and bias rows. Every stage of the reference is a function of some of these arrays.
-/
import proofs.«152764_j53214644797577_1_alg».proof.Proof.Gen.ReferenceIdeal.Read

noncomputable section

namespace Cert.ReferenceIdeal.Args

open Cert.ReferenceIdeal Idealize.ShloMosaic

/-- X: 100000 nodes by 64 features. -/
abbrev A0 := (⟨S100000x64, .f32⟩ : BufTy).Contents (Elt Ideal)
/-- The edges: a row of sources and a row of targets, 1600000 each. -/
abbrev A1 := (⟨S2x1600000, .i32⟩ : BufTy).Contents (Elt Ideal)
/-- The edges' weights. -/
abbrev A2 := (⟨S1600000, .f32⟩ : BufTy).Contents (Elt Ideal)
/-- W₁. -/
abbrev A3 := (⟨S64x64, .f32⟩ : BufTy).Contents (Elt Ideal)
/-- b₁. -/
abbrev A4 := (⟨S64, .f32⟩ : BufTy).Contents (Elt Ideal)
/-- W₂. -/
abbrev A5 := (⟨S64x64, .f32⟩ : BufTy).Contents (Elt Ideal)
/-- b₂. -/
abbrev A6 := (⟨S64, .f32⟩ : BufTy).Contents (Elt Ideal)
/-- W₃. -/
abbrev A7 := (⟨S64x32, .f32⟩ : BufTy).Contents (Elt Ideal)
/-- b₃. -/
abbrev A8 := (⟨S32, .f32⟩ : BufTy).Contents (Elt Ideal)
/-- W_f. -/
abbrev A9 := (⟨S32x32, .f32⟩ : BufTy).Contents (Elt Ideal)
/-- b_f. -/
abbrev A10 := (⟨S32, .f32⟩ : BufTy).Contents (Elt Ideal)

end Cert.ReferenceIdeal.Args

end
-- ==== Proof.HostKept.lean ====
/-
  The buffers that outlive a stretch of host operations.

  Across the kernel's @main a few buffers are written once and read again much later: the edges' source and target index
  vectors with the self loops appended, the edge weights with the self loops' ones appended, each layer's activations,
  and the eleven arguments, which nothing writes. A stretch of host operations that writes none of them leaves each as
  it found it.
-/
import proofs.«152764_j53214644797577_1_alg».proof.Proof.Gen.KernelIdeal.Launch
import Idealize.ShloMosaic.Lib.StableHlo.Run

noncomputable section

open Idealize.ShloMosaic

namespace Cert.KernelIdeal.Host

open Cert.KernelIdeal

/-- The eleven arguments. -/
abbrev keptArgs : List (Ref sig .tc) :=
  [main_arg0, main_arg1, main_arg2, main_arg3, main_arg4, main_arg5, main_arg6, main_arg7, main_arg8, main_arg9, main_arg10]

/-- The sources, the targets and the weights with the self loops appended, and the arguments. -/
abbrev stable : List (Ref sig .tc) :=
  [main_v3, main_v6, main_v8, main_arg0, main_arg1, main_arg2, main_arg3, main_arg4, main_arg5, main_arg6, main_arg7,
   main_arg8, main_arg9, main_arg10]

/-- Those, and the three layers' activations. -/
abbrev kept : List (Ref sig .tc) :=
  [main_v3, main_v6, main_v8, main_arg0, main_arg1, main_arg2, main_arg3, main_arg4, main_arg5, main_arg6, main_arg7,
   main_arg8, main_arg9, main_arg10, main_v47, main_v86, main_v125]

/-- Closes `StableHlo.after ops W (devRef b) = W (devRef b)` for a literal list `ops` and a buffer `b` known (`hb`) to lie in a
    literal list of buffers none of which the operations write: each operation writes one buffer, and were it `b`, `b`
    would not be in that list. -/
macro "kept_through " ops:ident " by " hb:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals (apply StableHlo.devRef_ne_of_ne; intro e; exact absurd (e ▸ $hb) (by decide)))))

theorem stable_sub_kept : ∀ b ∈ stable, b ∈ kept := by decide
theorem args_sub_kept : ∀ b ∈ keptArgs, b ∈ kept := by decide
theorem args_sub_stable : ∀ b ∈ keptArgs, b ∈ stable := by decide

end Cert.KernelIdeal.Host

end
-- ==== Proof.HostL1.lean ====
/-
  The first layer's host stretches, one at a time.

  Before the first pallas_call the kernel's @main computes, exactly as the reference does, the edges' sources and targets
  with the self loops appended, the weights with the self loops' ones appended, each node's degree (the weights summed
  into their targets), its inverse square root where the degree is positive and zero elsewhere, and each edge's
  normalisation — the weight times the two endpoints' factors. After the product X·W₁ it gathers the product's rows at
  the sources, scales each by its edge's normalisation and sums them into the targets, and lays the bias vector out as
  a row. Each stretch is read here from ANY contents of the buffers it starts from: a buffer it computes holds the
  reference's stage of the same name when the buffers it reads hold theirs (the two programs print the same operations),
  and a buffer it does not write keeps its contents.
-/
import proofs.«152764_j53214644797577_1_alg».proof.Proof.Gen.KernelIdeal.Launch
import proofs.«152764_j53214644797577_1_alg».proof.Proof.Args
import proofs.«152764_j53214644797577_1_alg».proof.Proof.HostKept
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen Cert.ReferenceIdeal.Read Cert.ReferenceIdeal.Args

variable (Wp : Valuation τ sig (Elt Ideal))
variable (x0 : A0) (x1 : A1) (x2 : A2) (x3 : A3) (x4 : A4) (x5 : A5) (x6 : A6) (x7 : A7) (x8 : A8) (x9 : A9) (x10 : A10)

/-! ## The stretch up to the degrees -/

theorem s0_v3 (h1 : Wp (Proc.devRef .tc main_arg1) = x1) :
    StableHlo.after hostOps0 Wp (Proc.devRef .tc main_v3) = val_main_v3 (F := Ideal) x1 := by
  simp only [hostOps0]; after_results; rw [h1]; rfl

theorem s0_v6 (h1 : Wp (Proc.devRef .tc main_arg1) = x1) :
    StableHlo.after hostOps0 Wp (Proc.devRef .tc main_v6) = val_main_v6 (F := Ideal) x1 := by
  simp only [hostOps0]; after_results; rw [h1]; rfl

theorem s0_v8 (h2 : Wp (Proc.devRef .tc main_arg2) = x2) :
    StableHlo.after hostOps0 Wp (Proc.devRef .tc main_v8) = val_main_v8 (F := Ideal) x2 := by
  simp only [hostOps0]; after_results; rw [h2]; rfl

theorem s0_v13 (h1 : Wp (Proc.devRef .tc main_arg1) = x1) (h2 : Wp (Proc.devRef .tc main_arg2) = x2) :
    StableHlo.after hostOps0 Wp (Proc.devRef .tc main_v13) = val_main_v13 (F := Ideal) x1 x2 := by
  simp only [hostOps0]; after_results; rw [h1, h2]; rfl

theorem s0_v14 (h1 : Wp (Proc.devRef .tc main_arg1) = x1) (h2 : Wp (Proc.devRef .tc main_arg2) = x2) :
    StableHlo.after hostOps0 Wp (Proc.devRef .tc main_v14) = val_main_v14 (F := Ideal) x1 x2 := by
  simp only [hostOps0]; after_results; rw [h1, h2]; rfl

theorem s0_cst_2 : StableHlo.after hostOps0 Wp (Proc.devRef .tc main_cst_2) = val_main_cst_2 (F := Ideal) := by
  simp only [hostOps0]; after_results; rfl

/-- The stretch writes no argument. -/
theorem keep0 (b : Ref sig .tc) (hb : b ∈ keptArgs) :
    StableHlo.after hostOps0 Wp (Proc.devRef .tc b) = Wp (Proc.devRef .tc b) := by
  kept_through hostOps0 by hb

/-! ## The choice between the inverse square root and zero -/

/-- The choice read over any contents: the flag's buffer chooses between the inverse square root's and the zero splat. -/
theorem s01_v15_raw :
    StableHlo.after hostOps0_1 Wp (Proc.devRef .tc main_v15)
      = select (Wp (Proc.devRef .tc main_v13)) (Wp (Proc.devRef .tc main_v14))
          (broadcastInDim S100000 ![] bcast_S_S100000 (id (Wp (Proc.devRef .tc main_cst_2)))) := by
  simp only [hostOps0_1]; after_results_simp; rfl

theorem s01_v15 (h13 : Wp (Proc.devRef .tc main_v13) = val_main_v13 (F := Ideal) x1 x2)
    (h14 : Wp (Proc.devRef .tc main_v14) = val_main_v14 (F := Ideal) x1 x2)
    (hc : Wp (Proc.devRef .tc main_cst_2) = val_main_cst_2 (F := Ideal)) :
    StableHlo.after hostOps0_1 Wp (Proc.devRef .tc main_v15) = val_main_v15 (F := Ideal) x1 x2 := by
  rw [s01_v15_raw, h13, h14, hc]; rfl

theorem keep0_1 (b : Ref sig .tc) (hb : b ∈ kept) :
    StableHlo.after hostOps0_1 Wp (Proc.devRef .tc b) = Wp (Proc.devRef .tc b) := by
  kept_through hostOps0_1 by hb

/-! ## The edges' normalisation -/

theorem s02_v31 (h3 : Wp (Proc.devRef .tc main_v3) = val_main_v3 (F := Ideal) x1)
    (h6 : Wp (Proc.devRef .tc main_v6) = val_main_v6 (F := Ideal) x1)
    (h8 : Wp (Proc.devRef .tc main_v8) = val_main_v8 (F := Ideal) x2)
    (h15 : Wp (Proc.devRef .tc main_v15) = val_main_v15 (F := Ideal) x1 x2) :
    StableHlo.after hostOps0_2 Wp (Proc.devRef .tc main_v31) = val_main_v31 (F := Ideal) x1 x2 := by
  simp only [hostOps0_2]; after_results_simp; rw [h3, h6, h8, h15]; rfl

theorem keep0_2 (b : Ref sig .tc) (hb : b ∈ kept) :
    StableHlo.after hostOps0_2 Wp (Proc.devRef .tc b) = Wp (Proc.devRef .tc b) := by
  kept_through hostOps0_2 by hb

/-! ## The aggregation of the first product, and the bias row -/

theorem s1_v45 (h3 : Wp (Proc.devRef .tc main_v3) = val_main_v3 (F := Ideal) x1)
    (h6 : Wp (Proc.devRef .tc main_v6) = val_main_v6 (F := Ideal) x1)
    (h31 : Wp (Proc.devRef .tc main_v31) = val_main_v31 (F := Ideal) x1 x2)
    (h32 : Wp (Proc.devRef .tc main_v32) = val_main_v32 (F := Ideal) x0 x3) :
    StableHlo.after hostOps1 Wp (Proc.devRef .tc main_v45) = val_main_v45 (F := Ideal) x0 x1 x2 x3 := by
  simp only [hostOps1, StableHlo.after_cons, StableHlo.after_nil]
  rw [StableHlo.reshape_result_ne]; rotate_left; decide
  after_results_simp; rw [h3, h6, h31, h32]; rfl

theorem s1_v46 (h4 : Wp (Proc.devRef .tc main_arg4) = x4) :
    StableHlo.after hostOps1 Wp (Proc.devRef .tc main_v46) = shapeCast S1x64 x4 shapeCasts_S64_S1x64 := by
  simp only [hostOps1, StableHlo.after_cons, StableHlo.after_nil]
  rw [StableHlo.reshape_result]
  after_results_simp; rw [h4]; rfl

theorem keep1 (b : Ref sig .tc) (hb : b ∈ kept) :
    StableHlo.after hostOps1 Wp (Proc.devRef .tc b) = Wp (Proc.devRef .tc b) := by
  kept_through hostOps1 by hb

end Cert.KernelIdeal.Host

end
-- ==== Proof.LibMatmul.lean ====
/-
  A general lemma: a matrix product with one contracted axis, read at an entry, over the extended reals.

  For an [a, K] matrix `l` and a [K, b] matrix `r`, the product that contracts the second axis of `l` with the first of
  `r`, accumulated into the zero matrix, has at `(p, q)` the entry ∑ₖ l[p,k]·r[k,q]. It holds for any record of the
  product's dimensions of that form (the well-formedness witness is an argument), any precision hint and any two float
  formats of the operands.
-/
import Idealize.ShloMosaic.Lib.ValueIdx
import Idealize.ShloMosaic.Lib.Pipeline.Value
import Idealize.ShloMosaic.PureOps.Ideal.Laws

noncomputable section

namespace Cert.LibMatmul

open Idealize.ShloMosaic Idealize.ShloMosaic.ValueIdx
open scoped BigOperators

/-- A product of an [a, K] matrix with a [K, b] matrix, contracting the one shared axis, accumulated into the zero matrix and read
    at (p, q), is the sum over the shared axis of the products of the row's and the column's entries. -/
theorem matmul_zero_ix2 {a K b : ℕ} {φ₁ φ₂ : FTy}
    (wf : DotDims.WF ⟨2, ![a, K]⟩ ⟨2, ![K, b]⟩ ⟨2, ![a, b]⟩ [1] [0] [0] [1] [] [])
    (prec : Option ContractPrecision)
    (l : FVec Ideal ⟨2, ![a, K]⟩ φ₁) (r : FVec Ideal ⟨2, ![K, b]⟩ φ₂) (p : Fin a) (q : Fin b) :
    FloatOps.matmul (⟨[1], [0], [0], [1], [], [], wf⟩ : DotDims ⟨2, ![a, K]⟩ ⟨2, ![K, b]⟩ ⟨2, ![a, b]⟩) prec l r
        (constant ⟨2, ![a, b]⟩ .f32 0x00000000#32) (ix2 p q)
      = ∑ k : Fin K, l (ix2 p k) * r (ix2 k q) := by
  generalize hD : (⟨[1], [0], [0], [1], [], [], wf⟩ : DotDims ⟨2, ![a, K]⟩ ⟨2, ![K, b]⟩ ⟨2, ![a, b]⟩) = D
  have hlc : D.lhsContracting = [1] := by rw [← hD]
  have hrc : D.rhsContracting = [0] := by rw [← hD]
  have hrank : D.contr.rank = 1 := by rw [D.rank_contr, hlc]; rfl
  have hsize : D.contr.size ⟨0, by omega⟩ = K := by
    rw [D.size_contr 0 (by rw [hlc]; exact Nat.one_pos)]
    simp only [hlc]; rfl
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun ax => Fin.ext (by
    match ax with
    | ⟨0, _⟩ =>
      subst hD
      unfold DotDims.lhsIdx
      rw [dif_neg, dif_pos]
      all_goals first | exact List.not_mem_nil | exact List.mem_singleton.mpr rfl | rfl
    | ⟨1, _⟩ => exact (D.lhsIdx_val_of_single hlc _ _).trans hk)
  have er : D.rhsIdx (ix2 p q) ((contrEquiv1 D K hrank hsize).symm k) = ix2 k q := funext fun ax => Fin.ext (by
    match ax with
    | ⟨0, _⟩ => exact (D.rhsIdx_val_of_single hrc _ _).trans hk
    | ⟨1, _⟩ =>
      subst hD
      unfold DotDims.rhsIdx
      rw [dif_neg, dif_pos]
      all_goals first | exact List.not_mem_nil | exact List.mem_singleton.mpr rfl | rfl)
  rw [el, er]

end Cert.LibMatmul

end
-- ==== Proof.DenseSpec.lean ====
/-
  The dense product as one whole-array function.

  For an [N, K] array X and a [K, B] array W over the extended reals, the array whose entry (n, q) is ∑ₖ X[n,k]·W[k,q].
  Every matrix product of the network — the kernel's row-blocked products and the reference's whole products — is this function.
  Beside it the two epilogues: one bias row added to every row, with or without the positive part taken afterwards.
-/
import Idealize.ShloMosaic.Lib.ValueIdx
import Idealize.ShloMosaic.PureOps.Ideal.Laws

noncomputable section

open Idealize.ShloMosaic Idealize.ShloMosaic.ValueIdx
open scoped BigOperators

namespace Cert.KernelIdeal.Dense

/-- The matrix product of an [N, K] array with a [K, B] array, entry by entry: row n of the first against column q of the second. -/
def rowsDot {N K B : ℕ} (X : (⟨2, ![N, K]⟩ : Shape).Idx → EReal) (W : (⟨2, ![K, B]⟩ : Shape).Idx → EReal) :
    (⟨2, ![N, B]⟩ : Shape).Idx → EReal :=
  fun i => ∑ k : Fin K, X (ix2 (⟨(i 0).val, idx2_lt0 i⟩ : Fin N) k) * W (ix2 k (⟨(i 1).val, idx2_lt1 i⟩ : Fin B))

/-- One row b added to every row of an [N, B] array, entry by entry. -/
def addRow {N B : ℕ} (A : (⟨2, ![N, B]⟩ : Shape).Idx → EReal) (b : (⟨2, ![1, B]⟩ : Shape).Idx → EReal) :
    (⟨2, ![N, B]⟩ : Shape).Idx → EReal :=
  fun i => A i + b (ix2 (0 : Fin 1) (⟨(i 1).val, idx2_lt1 i⟩ : Fin B))

/-- One row b added to every row of an [N, B] array, and then the larger of each entry and the float zero. -/
def addRowPos {N B : ℕ} (A : (⟨2, ![N, B]⟩ : Shape).Idx → EReal) (b : (⟨2, ![1, B]⟩ : Shape).Idx → EReal) :
    (⟨2, ![N, B]⟩ : Shape).Idx → EReal :=
  fun i => max (A i + b (ix2 (0 : Fin 1) (⟨(i 1).val, idx2_lt1 i⟩ : Fin B))) (Ideal.ofBits .f32 0x00000000#32)

/-- The origin of a rank-2 array is the zero offset on both axes. -/
theorem hz : (![0, 0] : Fin 2 → Nat) = fun _ => 0 := funext fun a => by fin_cases a <;> rfl

end Cert.KernelIdeal.Dense

end
-- ==== Proof.Dense0.lean ====
/-
  The first layer's dense product, read off its region.

  The first pallas_call multiplies the node features X (100000 rows of 64) by the weight matrix W₁ (64 by 64) in ten
  row blocks of 10000 rows: at grid point t the body reads rows 10000 t … 10000 t + 9999 of X and all of W₁, and
  stores their product. The two roundings to bf16 in front of the product are the identity over the extended reals,
  and the product into a zero accumulator has the entry ∑ₖ x[p,k]·w[k,q]. So what point t writes back is rows
  10000 t … 10000 t + 9999 of the one array whose entry (n, q) is ∑ₖ X[n,k]·W₁[k,q]; the ten blocks tile the 100000
  rows, hence after the region the output array is that array.
-/
import proofs.«152764_j53214644797577_1_alg».proof.Proof.Gen.KernelIdeal.Frame
import proofs.«152764_j53214644797577_1_alg».proof.Proof.LibMatmul
import proofs.«152764_j53214644797577_1_alg».proof.Proof.DenseSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Dense

open Cert.KernelIdeal Cert.KernelIdeal.Gen

variable (V : (c : Dev nD) → (b : Ref sig .tc) → Buf (Elt Ideal) ((c : Thread nD τ).loc b))

/-! ## Region 0: X · W₁ -/

/-- The body's stored value at (p, q): the two roundings to bf16 vanish over the extended reals and the product into a
    zero accumulator is the sum over the shared axis. -/
theorem pay0_apply (l : Vec Ideal S10000x64 .f32) (r : Vec Ideal S64x64 .f32) (p : Fin 10000) (q : Fin 64) :
    k0_pay1 l r (ix2 p q) = ∑ k : Fin 64, l (ix2 p k) * r (ix2 k q) := by
  unfold k0_pay1
  exact Cert.LibMatmul.matmul_zero_ix2 _ none _ _ p q

/-- Where the three windows' blocks sit at a grid point: the two row windows at block row t, the weights at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point t is rows 10000 t … 10000 t + 9999 of its array. -/
theorem xblk0 (c : Dev nD) (t : Fin cfg0.N) (y : S10000x64.Idx) (i : S100000x64.Idx)
    (h0 : (i 0).val = t.val * 10000 + (y 0).val) (h1 : (i 1).val = (y 1).val) :
    iblk0 V c 0 t y = V c main_arg0 i := by
  obtain ⟨e0, e1, -⟩ := idx0 t
  show V c main_arg0 (((cfg0.win 0).blk t).view.emb y) = V c main_arg0 i
  congr 1
  funext a; apply Fin.ext
  match a with
  | ⟨0, _⟩ => show win0_0.index t (0 : Fin 2) * 10000 + 1 * (y 0).val = (i 0).val; omega
  | ⟨1, _⟩ => show win0_0.index t (1 : Fin 2) * 64 + 1 * (y 1).val = (i 1).val; omega

/-- The weight window's block at every point is the whole weight matrix. -/
theorem wblk0 (c : Dev nD) (t : Fin cfg0.N) (y : S64x64.Idx) :
    iblk0 V c 1 t y = V c main_arg3 y := by
  obtain ⟨-, -, e2, e3, -⟩ := idx0 t
  show V c main_arg3 (((cfg0.win 1).blk t).view.emb y) = V c main_arg3 y
  congr 1
  funext a; apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- What point t writes back is block t of the product of the two arrays as the region finds them. -/
theorem flushed0 (c : Dev nD) (t : Fin cfg0.N) :
    (dat0 V c).flushed 2 t = ((cfg0.win 2).blk t).view.read (Elt Ideal) (rowsDot (V c main_arg0) (V c main_arg3)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨-, -, -, -, e4, e5⟩ := idx0 t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q) = rowsDot (V c main_arg0) (V c main_arg3) (((cfg0.win 2).blk t).view.emb (ix2 p q))
  rw [pay0_apply]
  unfold rowsDot
  refine Finset.sum_congr rfl fun k _ => ?_
  rw [wblk0 V c t (ix2 k q)]
  rw [xblk0 V c t (ix2 p k) (ix2 ⟨((((cfg0.win 2).blk t).view.emb (ix2 p q)) 0).val, idx2_lt0 _⟩ k) ?_ rfl]
  · refine congrArg _ (congrArg _ ?_)
    funext a; apply Fin.ext
    match a with
    | ⟨0, _⟩ => rfl
    | ⟨1, _⟩ => show q.val = win0_2.index t (1 : Fin 2) * 64 + 1 * q.val; omega
  · show win0_2.index t (0 : Fin 2) * 10000 + 1 * p.val = t.val * 10000 + p.val; omega

/-- An index of the output array lies in point t's block iff each coordinate lies in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- The ten row blocks tile the array: row n lies in block n / 10000. -/
theorem cover0 (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  have hN : cfg0.N = 10 := N_0
  have ht : (i 0).val / 10000 < cfg0.N := by rw [hN]; omega
  have e := idx0 ⟨(i 0).val / 10000, ht⟩
  have e4 : win0_2.index ⟨(i 0).val / 10000, ht⟩ (0 : Fin 2) = (i 0).val / 10000 := e.2.2.2.2.1
  have e5 : win0_2.index ⟨(i 0).val / 10000, ht⟩ (1 : Fin 2) = 0 := e.2.2.2.2.2
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e5]; omega

/-- After the region its output array is the product of the two input arrays as the region found them. -/
theorem final0 (c : Dev nD) : (dat0 V c).arrAt 2 cfg0.N = rowsDot (V c main_arg0) (V c main_arg3) :=
  (dat0 V c).arrAt_eq_of_cover 2 (rowsDot (V c main_arg0) (V c main_arg3)) (fun t _ => flushed0 V c t) cover0

end Cert.KernelIdeal.Dense

end
-- ==== Proof.Bias1.lean ====
/-
  The first layer's epilogue, read off its region.

  The second pallas_call adds the bias row b₁ (1 by 64) to every row of the aggregated array A (100000 rows of 64) and
  takes the larger of each entry and zero, in ten row blocks of 10000 rows: at grid point t the body reads rows
  10000 t … 10000 t + 9999 of A and the one bias row, and stores max(a[p,q] + b[0,q], 0). The casts of the two blocks
  to their own shapes are the identity and the broadcast of the bias row reads its column q at every row. So what
  point t writes back is rows 10000 t … 10000 t + 9999 of the one array max(A[n,q] + b[0,q], 0); the ten blocks tile
  the rows, hence after the region the output array is that array.
-/
import proofs.«152764_j53214644797577_1_alg».proof.Proof.Gen.KernelIdeal.Frame
import proofs.«152764_j53214644797577_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Dense

open Cert.KernelIdeal Cert.KernelIdeal.Gen

variable (V : (c : Dev nD) → (b : Ref sig .tc) → Buf (Elt Ideal) ((c : Thread nD τ).loc b))

/-! ## Region 1: max(A + b₁, 0) -/

/-- The body's stored value at (p, q): the block's entry plus the bias row's entry of column q, and the larger of that and zero. -/
theorem pay1_apply (a : Vec Ideal S10000x64 .f32) (b : Vec Ideal S1x64 .f32) (p : Fin 10000) (q : Fin 64) :
    k1_pay1 a b (ix2 p q) = max (a (ix2 p q) + b (ix2 (0 : Fin 1) q)) (Ideal.ofBits .f32 0x00000000#32) := by
  unfold k1_pay1
  rw [shapeCast_self, shapeCast_self]
  show max (a (ix2 p q) + broadcastTo S10000x64 b broadcasts_S1x64_S10000x64 (ix2 p q)) _ = _
  rw [broadcastTo_1b_ab_apply]
  rfl

/-- Where the three windows' blocks sit at a grid point: the two row windows at block row t, the bias row at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row window's block at point t is rows 10000 t … 10000 t + 9999 of its array. -/
theorem ablk1 (c : Dev nD) (t : Fin cfg1.N) (y : S10000x64.Idx) (i : S100000x64.Idx)
    (h0 : (i 0).val = t.val * 10000 + (y 0).val) (h1 : (i 1).val = (y 1).val) :
    iblk1 V c 0 t y = V c main_v45 i := by
  obtain ⟨e0, e1, -⟩ := idx1 t
  show V c main_v45 (((cfg1.win 0).blk t).view.emb y) = V c main_v45 i
  congr 1
  funext a; apply Fin.ext
  match a with
  | ⟨0, _⟩ => show win1_0.index t (0 : Fin 2) * 10000 + 1 * (y 0).val = (i 0).val; omega
  | ⟨1, _⟩ => show win1_0.index t (1 : Fin 2) * 64 + 1 * (y 1).val = (i 1).val; omega

/-- The bias window's block at every point is the whole bias row. -/
theorem bblk1 (c : Dev nD) (t : Fin cfg1.N) (y : S1x64.Idx) :
    iblk1 V c 1 t y = V c main_v46 y := by
  obtain ⟨-, -, e2, e3, -⟩ := idx1 t
  show V c main_v46 (((cfg1.win 1).blk t).view.emb y) = V c main_v46 y
  congr 1
  funext a; apply Fin.ext
  match a with
  | ⟨0, _⟩ => show win1_1.index t (0 : Fin 2) * 1 + 1 * (y 0).val = (y 0).val; omega
  | ⟨1, _⟩ => show win1_1.index t (1 : Fin 2) * 64 + 1 * (y 1).val = (y 1).val; omega

/-- What point t writes back is block t of the biased, clamped array of the two arrays as the region finds them. -/
theorem flushed1 (c : Dev nD) (t : Fin cfg1.N) :
    (dat1 V c).flushed 2 t = ((cfg1.win 2).blk t).view.read (Elt Ideal) (addRowPos (V c main_v45) (V c main_v46)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨-, -, -, -, e4, e5⟩ := idx1 t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q) = addRowPos (V c main_v45) (V c main_v46) (((cfg1.win 2).blk t).view.emb (ix2 p q))
  rw [pay1_apply]
  unfold addRowPos
  have hq : ix2 (0 : Fin 1) (⟨((((cfg1.win 2).blk t).view.emb (ix2 p q)) 1).val, idx2_lt1 _⟩ : Fin 64) = ix2 (0 : Fin 1) q := by
    funext a; apply Fin.ext
    match a with
    | ⟨0, _⟩ => rfl
    | ⟨1, _⟩ => show win1_2.index t (1 : Fin 2) * 64 + 1 * q.val = q.val; omega
  rw [hq, bblk1 V c t (ix2 (0 : Fin 1) q), ablk1 V c t (ix2 p q) (((cfg1.win 2).blk t).view.emb (ix2 p q)) ?_ ?_]
  · show win1_2.index t (0 : Fin 2) * 10000 + 1 * p.val = t.val * 10000 + p.val; omega
  · show win1_2.index t (1 : Fin 2) * 64 + 1 * q.val = q.val; omega

/-- An index of the output array lies in point t's block iff each coordinate lies in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- The ten row blocks tile the array: row n lies in block n / 10000. -/
theorem cover1 (i : S100000x64.Idx) :
    ∃ t : Fin cfg1.N, (cfg1.win 2).flush t = true ∧ i ∈ ((cfg1.win 2).blk t).view.set := by
  have hi0 : (i 0).val < 100000 := idx2_lt0 i
  have hi1 : (i 1).val < 64 := idx2_lt1 i
  have hN : cfg1.N = 10 := N_1
  have ht : (i 0).val / 10000 < cfg1.N := by rw [hN]; omega
  have e := idx1 ⟨(i 0).val / 10000, ht⟩
  have e4 : win1_2.index ⟨(i 0).val / 10000, ht⟩ (0 : Fin 2) = (i 0).val / 10000 := e.2.2.2.2.1
  have e5 : win1_2.index ⟨(i 0).val / 10000, ht⟩ (1 : Fin 2) = 0 := e.2.2.2.2.2
  refine ⟨⟨(i 0).val / 10000, ht⟩, flush1_2 _, ?_⟩
  rw [mem_blk1]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; omega
  | ⟨1, _⟩ =>
    show win1_2.index ⟨(i 0).val / 10000, ht⟩ (1 : Fin 2) * 64 ≤ (i 1).val ∧ (i 1).val < win1_2.index ⟨(i 0).val / 10000, ht⟩ (1 : Fin 2) * 64 + 64
    rw [e5]; omega

/-- After the region its output array is the biased, clamped array of the two input arrays as the region found them. -/
theorem final1 (c : Dev nD) : (dat1 V c).arrAt 2 cfg1.N = addRowPos (V c main_v45) (V c main_v46) :=
  (dat1 V c).arrAt_eq_of_cover 2 (addRowPos (V c main_v45) (V c main_v46)) (fun t _ => flushed1 V c t) cover1

end Cert.KernelIdeal.Dense

end
-- ==== Proof.RefDot.lean ====
/-
  The reference's four products as the whole-array product of the specification.

  Each `dot_general` of the reference contracts the second axis of an [N, K] array with the first of a [K, B] array: at
  (n, q) it is ∑ₖ l[n,k]·r[k,q], the function `rowsDot` of its two operands. What the left operand is plays no part: it is
  made a variable before the entries are compared, so that no earlier stage is ever opened.
-/
import proofs.«152764_j53214644797577_1_alg».proof.Proof.Args
import proofs.«152764_j53214644797577_1_alg».proof.Proof.DenseSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.ValueIdx
open scoped BigOperators

namespace Cert.ReferenceIdeal.Dense

open Cert.ReferenceIdeal Cert.ReferenceIdeal.Read Cert.ReferenceIdeal.Args Cert.KernelIdeal.Dense

variable (x0 : A0) (x1 : A1) (x2 : A2) (x3 : A3) (x4 : A4) (x5 : A5) (x6 : A6) (x7 : A7) (x8 : A8) (x9 : A9) (x10 : A10)

/-- The first layer's product, of any two arrays of its shapes. -/
theorem dot1 (X : A0) (W : A3) : val_main_v32 (F := Ideal) X W = rowsDot X W := by
  funext i
  rw [val_main_v32_apply]
  unfold rowsDot
  refine Finset.sum_congr rfl fun k _ => ?_
  have hl : lidx_main_v32 i k = ix2 (⟨(i 0).val, idx2_lt0 i⟩ : Fin 100000) k :=
    funext fun a => match a with | ⟨0, _⟩ => rfl | ⟨1, _⟩ => rfl
  have hr : ridx_main_v32 i k = ix2 k (⟨(i 1).val, idx2_lt1 i⟩ : Fin 64) :=
    funext fun a => match a with | ⟨0, _⟩ => rfl | ⟨1, _⟩ => rfl
  rw [hl, hr]

/-- The second layer's product: the same shapes, its left operand the first layer's activations. -/
theorem dot2 : val_main_v73 (F := Ideal) x0 x1 x2 x3 x4 x5 = rowsDot (val_main_v49 (F := Ideal) x0 x1 x2 x3 x4) x5 := by
  unfold val_main_v73
  generalize val_main_v49 (F := Ideal) x0 x1 x2 x3 x4 = H
  exact dot1 H x5

/-- The third layer's product, into 32 columns. -/
theorem dot3 : val_main_v114 (F := Ideal) x0 x1 x2 x3 x4 x5 x6 x7 = rowsDot (val_main_v90 (F := Ideal) x0 x1 x2 x3 x4 x5 x6) x7 := by
  funext i
  rw [val_main_v114_apply]
  generalize val_main_v90 (F := Ideal) x0 x1 x2 x3 x4 x5 x6 = H
  unfold rowsDot
  refine Finset.sum_congr rfl fun k _ => ?_
  have hl : lidx_main_v114 i k = ix2 (⟨(i 0).val, idx2_lt0 i⟩ : Fin 100000) k :=
    funext fun a => match a with | ⟨0, _⟩ => rfl | ⟨1, _⟩ => rfl
  have hr : ridx_main_v114 i k = ix2 k (⟨(i 1).val, idx2_lt1 i⟩ : Fin 32) :=
    funext fun a => match a with | ⟨0, _⟩ => rfl | ⟨1, _⟩ => rfl
  rw [hl, hr]

/-- The final linear layer's product. -/
theorem dot4 : val_main_v131 (F := Ideal) x0 x1 x2 x3 x4 x5 x6 x7 x8 x9 = rowsDot (val_main_v130 (F := Ideal) x0 x1 x2 x3 x4 x5 x6 x7 x8) x9 := by
  funext i
  rw [val_main_v131_apply]
  generalize val_main_v130 (F := Ideal) x0 x1 x2 x3 x4 x5 x6 x7 x8 = H
  unfold rowsDot
  refine Finset.sum_congr rfl fun k _ => ?_
  have hl : lidx_main_v131 i k = ix2 (⟨(i 0).val, idx2_lt0 i⟩ : Fin 100000) k :=
    funext fun a => match a with | ⟨0, _⟩ => rfl | ⟨1, _⟩ => rfl
  have hr : ridx_main_v131 i k = ix2 k (⟨(i 1).val, idx2_lt1 i⟩ : Fin 32) :=
    funext fun a => match a with | ⟨0, _⟩ => rfl | ⟨1, _⟩ => rfl
  rw [hl, hr]

end Cert.ReferenceIdeal.Dense

end
-- ==== Proof.RefBias.lean ====
/-
  The reference's four epilogues as the whole-array functions of the specification.

  Each epilogue broadcasts a bias vector to a row [1, B], that row over all N rows, and adds it to an [N, B] array — the
  function `addRow` of the array and of the bias vector laid out as a [1, B] row —, and in the first two layers takes the
  larger of each entry and the float zero afterwards (`addRowPos`). A vector cast to [1, B] and the same vector broadcast
  to [1, B] are one row: entry (0, q) is entry q. The array the bias is added to plays no part, so each fact is stated for
  ANY array of extended reals first and only then read at the reference's stage.
-/
import proofs.«152764_j53214644797577_1_alg».proof.Proof.Args
import proofs.«152764_j53214644797577_1_alg».proof.Proof.DenseSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.ValueIdx
open scoped BigOperators

namespace Cert.ReferenceIdeal.Dense

open Cert.ReferenceIdeal Cert.ReferenceIdeal.Read Cert.ReferenceIdeal.Args Cert.KernelIdeal.Dense

variable (x0 : A0) (x1 : A1) (x2 : A2) (x3 : A3) (x4 : A4) (x5 : A5) (x6 : A6) (x7 : A7) (x8 : A8) (x9 : A9) (x10 : A10)

/-! ## For any array -/

/-- The first layer's bias row and positive part, over any array. -/
theorem epi1 (A : S100000x64.Idx → EReal) (h : S64.ShapeCasts S1x64) :
    maximumf (F := Ideal) (φ := .f32) (addf A (val_main_v47 (F := Ideal) x4)) (val_main_call1_v0 (F := Ideal))
      = addRowPos A (shapeCast S1x64 x4 h) := by
  funext i
  obtain ⟨n, q, rfl⟩ : ∃ (n : Fin 100000) (q : Fin 64), i = ix2 n q := ⟨i 0, i 1, eq_ix2 i⟩
  show max (A (ix2 n q) + val_main_v47 (F := Ideal) x4 (ix2 n q)) (val_main_call1_v0 (F := Ideal) (ix2 n q))
    = max (A (ix2 n q) + shapeCast S1x64 x4 h (ix2 (0 : Fin 1) q)) (Ideal.ofBits .f32 0x00000000#32)
  rw [val_main_v47_apply, val_main_v46_apply, shapeCast_a_1a_apply, val_main_call1_v0_apply]
  have e : idx_main_v46 (idx_main_v47 (ix2 n q)) = ix1 q := funext fun a => match a with | ⟨0, _⟩ => rfl
  rw [e]
  rfl

/-- The second layer's bias row and positive part, over any array. -/
theorem epi2 (A : S100000x64.Idx → EReal) (h : S64.ShapeCasts S1x64) :
    maximumf (F := Ideal) (φ := .f32) (addf A (val_main_v88 (F := Ideal) x6)) (val_main_call3_v0 (F := Ideal))
      = addRowPos A (shapeCast S1x64 x6 h) := by
  funext i
  obtain ⟨n, q, rfl⟩ : ∃ (n : Fin 100000) (q : Fin 64), i = ix2 n q := ⟨i 0, i 1, eq_ix2 i⟩
  show max (A (ix2 n q) + val_main_v88 (F := Ideal) x6 (ix2 n q)) (val_main_call3_v0 (F := Ideal) (ix2 n q))
    = max (A (ix2 n q) + shapeCast S1x64 x6 h (ix2 (0 : Fin 1) q)) (Ideal.ofBits .f32 0x00000000#32)
  rw [val_main_v88_apply, val_main_v87_apply, shapeCast_a_1a_apply, val_main_call3_v0_apply]
  have e : idx_main_v87 (idx_main_v88 (ix2 n q)) = ix1 q := funext fun a => match a with | ⟨0, _⟩ => rfl
  rw [e]
  rfl

/-- The third layer's bias row, over any array: no positive part. -/
theorem epi3 (A : S100000x32.Idx → EReal) (h : S32.ShapeCasts S1x32) :
    addf (F := Ideal) (φ := .f32) A (val_main_v129 (F := Ideal) x8) = addRow A (shapeCast S1x32 x8 h) := by
  funext i
  obtain ⟨n, q, rfl⟩ : ∃ (n : Fin 100000) (q : Fin 32), i = ix2 n q := ⟨i 0, i 1, eq_ix2 i⟩
  show A (ix2 n q) + val_main_v129 (F := Ideal) x8 (ix2 n q) = A (ix2 n q) + shapeCast S1x32 x8 h (ix2 (0 : Fin 1) q)
  rw [val_main_v129_apply, val_main_v128_apply, shapeCast_a_1a_apply]
  have e : idx_main_v128 (idx_main_v129 (ix2 n q)) = ix1 q := funext fun a => match a with | ⟨0, _⟩ => rfl
  rw [e]

/-- The final layer's bias row, over any array. -/
theorem epi4 (A : S100000x32.Idx → EReal) (h : S32.ShapeCasts S1x32) :
    addf (F := Ideal) (φ := .f32) A (val_main_v133 (F := Ideal) x10) = addRow A (shapeCast S1x32 x10 h) := by
  funext i
  obtain ⟨n, q, rfl⟩ : ∃ (n : Fin 100000) (q : Fin 32), i = ix2 n q := ⟨i 0, i 1, eq_ix2 i⟩
  show A (ix2 n q) + val_main_v133 (F := Ideal) x10 (ix2 n q) = A (ix2 n q) + shapeCast S1x32 x10 h (ix2 (0 : Fin 1) q)
  rw [val_main_v133_apply, val_main_v132_apply, shapeCast_a_1a_apply]
  have e : idx_main_v132 (idx_main_v133 (ix2 n q)) = ix1 q := funext fun a => match a with | ⟨0, _⟩ => rfl
  rw [e]

/-! ## At the reference's stages -/

/-- The first layer's epilogue: the bias vector as a row, added to every row of the aggregate, and the positive part. -/
theorem bias1 (h : S64.ShapeCasts S1x64) :
    val_main_v49 (F := Ideal) x0 x1 x2 x3 x4 = addRowPos (val_main_v45 (F := Ideal) x0 x1 x2 x3) (shapeCast S1x64 x4 h) := by
  unfold val_main_v49 val_main_v48
  exact epi1 x4 _ h

/-- The second layer's epilogue. -/
theorem bias2 (h : S64.ShapeCasts S1x64) :
    val_main_v90 (F := Ideal) x0 x1 x2 x3 x4 x5 x6 = addRowPos (val_main_v86 (F := Ideal) x0 x1 x2 x3 x4 x5) (shapeCast S1x64 x6 h) := by
  unfold val_main_v90 val_main_v89
  exact epi2 x6 _ h

/-- The third layer's epilogue: no positive part. -/
theorem bias3 (h : S32.ShapeCasts S1x32) :
    val_main_v130 (F := Ideal) x0 x1 x2 x3 x4 x5 x6 x7 x8 = addRow (val_main_v127 (F := Ideal) x0 x1 x2 x3 x4 x5 x6 x7) (shapeCast S1x32 x8 h) := by
  unfold val_main_v130
  exact epi3 x8 _ h

/-- The final linear layer's bias: added to whatever the product is. -/
theorem linear (h : S32.ShapeCasts S1x32) :
    val_main_v134 (F := Ideal) x0 x1 x2 x3 x4 x5 x6 x7 x8 x9 x10
      = addRow (val_main_v131 (F := Ideal) x0 x1 x2 x3 x4 x5 x6 x7 x8 x9) (shapeCast S1x32 x10 h) := by
  unfold val_main_v134
  exact epi4 x10 _ h

end Cert.ReferenceIdeal.Dense

end
-- ==== Proof.Track1.lean ====
/-
  The first layer, boundary by boundary.

  The kernel's @main is a chain of stretches of host operations and pallas_calls; the contents of the TensorCore's
  buffers at each boundary are a fold from the launch memory. Here the fold is read up to the first layer's output: at
  each boundary the buffers that matter hold the reference's stages of the launch arguments — the sources, targets and
  weights with the self loops appended, the edges' normalisation, the product X·W₁ (the first region's ten row blocks
  are the whole product), its aggregation over the edges, and max(aggregate + b₁, 0) (the second region's blocks) —
  while the arguments and the three edge vectors pass every stretch and region unchanged.
-/
import proofs.«152764_j53214644797577_1_alg».proof.Proof.Gen.KernelIdeal.Frame
import proofs.«152764_j53214644797577_1_alg».proof.Proof.HostL1
import proofs.«152764_j53214644797577_1_alg».proof.Proof.Dense0
import proofs.«152764_j53214644797577_1_alg».proof.Proof.Bias1
import proofs.«152764_j53214644797577_1_alg».proof.Proof.RefDot
import proofs.«152764_j53214644797577_1_alg».proof.Proof.RefBias

set_option maxRecDepth 16384

noncomputable section

open Idealize.ShloMosaic Idealize.ShloMosaic.TcCoe Idealize.SL.Sem Idealize.ShloMosaic.StableHlo
open Idealize.ShloMosaic.Pipeline (Dat)

namespace Cert.KernelIdeal.Track

open Cert.KernelIdeal Cert.KernelIdeal.Gen Cert.KernelIdeal.Host Cert.KernelIdeal.Dense
open Cert.ReferenceIdeal.Read Cert.ReferenceIdeal.Args Cert.ReferenceIdeal.Dense

variable (m : (ℓ : Loc nD τ sig) → Buf (Elt Ideal) ℓ) (ρ : Dev nD → PrngReg) (c : Dev nD)

/-! ## The launch arguments -/

abbrev a0 : A0 := m ((c : Thread nD τ).loc main_arg0)
abbrev a1 : A1 := m ((c : Thread nD τ).loc main_arg1)
abbrev a2 : A2 := m ((c : Thread nD τ).loc main_arg2)
abbrev a3 : A3 := m ((c : Thread nD τ).loc main_arg3)
abbrev a4 : A4 := m ((c : Thread nD τ).loc main_arg4)
abbrev a5 : A5 := m ((c : Thread nD τ).loc main_arg5)
abbrev a6 : A6 := m ((c : Thread nD τ).loc main_arg6)
abbrev a7 : A7 := m ((c : Thread nD τ).loc main_arg7)
abbrev a8 : A8 := m ((c : Thread nD τ).loc main_arg8)
abbrev a9 : A9 := m ((c : Thread nD τ).loc main_arg9)
abbrev a10 : A10 := m ((c : Thread nD τ).loc main_arg10)

/-! ## Up to the first region's entry -/

theorem w1_v3 : W1 m ρ c (Proc.devRef .tc main_v3) = val_main_v3 (F := Ideal) (a1 m c) := s0_v3 (W0 m ρ c) (a1 m c) rfl
theorem w1_v6 : W1 m ρ c (Proc.devRef .tc main_v6) = val_main_v6 (F := Ideal) (a1 m c) := s0_v6 (W0 m ρ c) (a1 m c) rfl
theorem w1_v8 : W1 m ρ c (Proc.devRef .tc main_v8) = val_main_v8 (F := Ideal) (a2 m c) := s0_v8 (W0 m ρ c) (a2 m c) rfl
theorem w1_v13 : W1 m ρ c (Proc.devRef .tc main_v13) = val_main_v13 (F := Ideal) (a1 m c) (a2 m c) :=
  s0_v13 (W0 m ρ c) (a1 m c) (a2 m c) rfl rfl
theorem w1_v14 : W1 m ρ c (Proc.devRef .tc main_v14) = val_main_v14 (F := Ideal) (a1 m c) (a2 m c) :=
  s0_v14 (W0 m ρ c) (a1 m c) (a2 m c) rfl rfl
theorem w1_cst_2 : W1 m ρ c (Proc.devRef .tc main_cst_2) = val_main_cst_2 (F := Ideal) := s0_cst_2 (W0 m ρ c)

theorem w2_v15 : W2 m ρ c (Proc.devRef .tc main_v15) = val_main_v15 (F := Ideal) (a1 m c) (a2 m c) :=
  s01_v15 (W1 m ρ c) (a1 m c) (a2 m c) (w1_v13 m ρ c) (w1_v14 m ρ c) (w1_cst_2 m ρ c)
theorem w2_v3 : W2 m ρ c (Proc.devRef .tc main_v3) = val_main_v3 (F := Ideal) (a1 m c) :=
  (keep0_1 (W1 m ρ c) main_v3 (by decide)).trans (w1_v3 m ρ c)
theorem w2_v6 : W2 m ρ c (Proc.devRef .tc main_v6) = val_main_v6 (F := Ideal) (a1 m c) :=
  (keep0_1 (W1 m ρ c) main_v6 (by decide)).trans (w1_v6 m ρ c)
theorem w2_v8 : W2 m ρ c (Proc.devRef .tc main_v8) = val_main_v8 (F := Ideal) (a2 m c) :=
  (keep0_1 (W1 m ρ c) main_v8 (by decide)).trans (w1_v8 m ρ c)

/-- The edges' normalisation at the first region's entry. -/
theorem w3_v31 : W3 m ρ c (Proc.devRef .tc main_v31) = val_main_v31 (F := Ideal) (a1 m c) (a2 m c) :=
  s02_v31 (W2 m ρ c) (a1 m c) (a2 m c) (w2_v3 m ρ c) (w2_v6 m ρ c) (w2_v8 m ρ c) (w2_v15 m ρ c)
theorem w3_v3 : W3 m ρ c (Proc.devRef .tc main_v3) = val_main_v3 (F := Ideal) (a1 m c) :=
  (keep0_2 (W2 m ρ c) main_v3 (by decide)).trans (w2_v3 m ρ c)
theorem w3_v6 : W3 m ρ c (Proc.devRef .tc main_v6) = val_main_v6 (F := Ideal) (a1 m c) :=
  (keep0_2 (W2 m ρ c) main_v6 (by decide)).trans (w2_v6 m ρ c)
theorem w3_v8 : W3 m ρ c (Proc.devRef .tc main_v8) = val_main_v8 (F := Ideal) (a2 m c) :=
  (keep0_2 (W2 m ρ c) main_v8 (by decide)).trans (w2_v8 m ρ c)

/-- An argument at the first region's entry is the argument as launched. -/
theorem w3_arg (b : Ref sig .tc) (hb : b ∈ keptArgs) :
    W3 m ρ c (Proc.devRef .tc b) = W0 m ρ c (Proc.devRef .tc b) :=
  ((keep0_2 (W2 m ρ c) b (args_sub_kept b hb)).trans (keep0_1 (W1 m ρ c) b (args_sub_kept b hb))).trans (keep0 (W0 m ρ c) b hb)

/-! ## The first region: X · W₁ -/

/-- The region leaves every long-lived buffer as it found it: it writes its output array only. -/
theorem st4 (b : Ref sig .tc) (hb : b ∈ stable) : W4 m ρ c (Proc.devRef .tc b) = W3 m ρ c (Proc.devRef .tc b) := by
  simp only [stable, List.mem_cons, List.mem_nil_iff, or_false] at hb
  rcases hb with rfl | rfl | rfl | rfl | rfl | rfl | rfl | rfl | rfl | rfl | rfl | rfl | rfl | rfl
  all_goals first
    | exact W4_of_ne m ρ c _ (by decide)
    | exact (W4_arr m ρ c 0).trans (((dat0 (V3 m ρ) c).arrAt_in 0 rfl _).trans (A_eq0 (V3 m ρ) c 0))
    | exact (W4_arr m ρ c 1).trans (((dat0 (V3 m ρ) c).arrAt_in 1 rfl _).trans (A_eq0 (V3 m ρ) c 1))

/-- After the first region its output array is the reference's first product. -/
theorem w4_v32 : W4 m ρ c (Proc.devRef .tc main_v32) = val_main_v32 (F := Ideal) (a0 m c) (a3 m c) := by
  refine (W4_arr m ρ c 2).trans ((final0 (V3 m ρ) c).trans ?_)
  rw [show V3 m ρ c main_arg0 = a0 m c from w3_arg m ρ c main_arg0 (by decide),
    show V3 m ρ c main_arg3 = a3 m c from w3_arg m ρ c main_arg3 (by decide)]
  exact (dot1 _ _).symm

theorem w4_v31 : W4 m ρ c (Proc.devRef .tc main_v31) = val_main_v31 (F := Ideal) (a1 m c) (a2 m c) :=
  (W4_of_ne m ρ c main_v31 (by decide)).trans (w3_v31 m ρ c)

/-! ## The aggregation and the bias row -/

theorem w5_v45 : W5 m ρ c (Proc.devRef .tc main_v45) = val_main_v45 (F := Ideal) (a0 m c) (a1 m c) (a2 m c) (a3 m c) :=
  s1_v45 (W4 m ρ c) (a0 m c) (a1 m c) (a2 m c) (a3 m c)
    ((st4 m ρ c main_v3 (by decide)).trans (w3_v3 m ρ c)) ((st4 m ρ c main_v6 (by decide)).trans (w3_v6 m ρ c))
    (w4_v31 m ρ c) (w4_v32 m ρ c)

theorem w5_v46 : W5 m ρ c (Proc.devRef .tc main_v46) = shapeCast S1x64 (a4 m c) shapeCasts_S64_S1x64 :=
  s1_v46 (W4 m ρ c) (a4 m c) ((st4 m ρ c main_arg4 (by decide)).trans (w3_arg m ρ c main_arg4 (by decide)))

theorem st5 (b : Ref sig .tc) (hb : b ∈ stable) : W5 m ρ c (Proc.devRef .tc b) = W3 m ρ c (Proc.devRef .tc b) :=
  (keep1 (W4 m ρ c) b (stable_sub_kept b hb)).trans (st4 m ρ c b hb)

/-! ## The second region: max(aggregate + b₁, 0) -/

/-- After the second region its output array is the reference's first layer: the activations H₁. -/
theorem w6_v47 : W6 m ρ c (Proc.devRef .tc main_v47)
    = val_main_v49 (F := Ideal) (a0 m c) (a1 m c) (a2 m c) (a3 m c) (a4 m c) := by
  refine (W6_arr m ρ c 2).trans ((final1 (V5 m ρ) c).trans ?_)
  rw [show V5 m ρ c main_v45 = _ from w5_v45 m ρ c, show V5 m ρ c main_v46 = _ from w5_v46 m ρ c]
  exact (bias1 _ _ _ _ _ _).symm

/-- The second region writes its output array only; no long-lived buffer is among its arrays. -/
theorem st6 (b : Ref sig .tc) (hb : b ∈ stable) : W6 m ρ c (Proc.devRef .tc b) = W3 m ρ c (Proc.devRef .tc b) := by
  refine Eq.trans ?_ (st5 m ρ c b hb)
  simp only [stable, List.mem_cons, List.mem_nil_iff, or_false] at hb
  rcases hb with rfl | rfl | rfl | rfl | rfl | rfl | rfl | rfl | rfl | rfl | rfl | rfl | rfl | rfl
  all_goals exact W6_of_ne m ρ c _ (by decide)

end Cert.KernelIdeal.Track

end
-- ==== Proof.HostL2.lean ====
/-
  The second layer's host stretches, one at a time.

  Between the first layer's epilogue and the second product the kernel's @main computes the degrees, their inverse square
  roots and the edges' normalisation again from the same targets, sources and weights — the same operations as before the
  first product, in new buffers —, and after the product H₁·W₂ gathers its rows at the sources, scales them and sums them
  into the targets, and lays the second bias vector out as a row. The reference prints the same operations, two places
  later in its numbering (its first layer's bias addition and positive part are host operations of their own). Each
  stretch is read from ANY contents of the buffers it starts from.
-/
import proofs.«152764_j53214644797577_1_alg».proof.Proof.Gen.KernelIdeal.Launch
import proofs.«152764_j53214644797577_1_alg».proof.Proof.Args
import proofs.«152764_j53214644797577_1_alg».proof.Proof.HostKept
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen Cert.ReferenceIdeal.Read Cert.ReferenceIdeal.Args

variable (Wp : Valuation τ sig (Elt Ideal))
variable (x0 : A0) (x1 : A1) (x2 : A2) (x3 : A3) (x4 : A4) (x5 : A5) (x6 : A6) (x7 : A7) (x8 : A8) (x9 : A9) (x10 : A10)

/-! ## The degrees again -/

theorem s2_v52 (h6 : Wp (Proc.devRef .tc main_v6) = val_main_v6 (F := Ideal) x1)
    (h8 : Wp (Proc.devRef .tc main_v8) = val_main_v8 (F := Ideal) x2) :
    StableHlo.after hostOps2 Wp (Proc.devRef .tc main_v52) = val_main_v54 (F := Ideal) x1 x2 := by
  simp only [hostOps2]; after_results_simp; rw [h6, h8]; rfl

theorem s2_v53 (h6 : Wp (Proc.devRef .tc main_v6) = val_main_v6 (F := Ideal) x1)
    (h8 : Wp (Proc.devRef .tc main_v8) = val_main_v8 (F := Ideal) x2) :
    StableHlo.after hostOps2 Wp (Proc.devRef .tc main_v53) = val_main_v55 (F := Ideal) x1 x2 := by
  simp only [hostOps2]; after_results_simp; rw [h6, h8]; rfl

theorem s2_cst_11 : StableHlo.after hostOps2 Wp (Proc.devRef .tc main_cst_11) = val_main_cst_11 (F := Ideal) := by
  simp only [hostOps2]; after_results_simp; rfl

theorem keep2 (b : Ref sig .tc) (hb : b ∈ kept) :
    StableHlo.after hostOps2 Wp (Proc.devRef .tc b) = Wp (Proc.devRef .tc b) := by
  kept_through hostOps2 by hb

/-! ## The choice between the inverse square root and zero -/

/-- The choice read over any contents: the flag's buffer chooses between the inverse square root's and the zero splat. -/
theorem s21_v54_raw :
    StableHlo.after hostOps2_1 Wp (Proc.devRef .tc main_v54)
      = select (Wp (Proc.devRef .tc main_v52)) (Wp (Proc.devRef .tc main_v53))
          (broadcastInDim S100000 ![] bcast_S_S100000 (id (Wp (Proc.devRef .tc main_cst_11)))) := by
  simp only [hostOps2_1]; after_results_simp; rfl

theorem s21_v54 (h52 : Wp (Proc.devRef .tc main_v52) = val_main_v54 (F := Ideal) x1 x2)
    (h53 : Wp (Proc.devRef .tc main_v53) = val_main_v55 (F := Ideal) x1 x2)
    (hc : Wp (Proc.devRef .tc main_cst_11) = val_main_cst_11 (F := Ideal)) :
    StableHlo.after hostOps2_1 Wp (Proc.devRef .tc main_v54) = val_main_v56 (F := Ideal) x1 x2 := by
  rw [s21_v54_raw, h52, h53, hc]; rfl

theorem keep2_1 (b : Ref sig .tc) (hb : b ∈ kept) :
    StableHlo.after hostOps2_1 Wp (Proc.devRef .tc b) = Wp (Proc.devRef .tc b) := by
  kept_through hostOps2_1 by hb

/-! ## The edges' normalisation -/

theorem s22_v70 (h3 : Wp (Proc.devRef .tc main_v3) = val_main_v3 (F := Ideal) x1)
    (h6 : Wp (Proc.devRef .tc main_v6) = val_main_v6 (F := Ideal) x1)
    (h8 : Wp (Proc.devRef .tc main_v8) = val_main_v8 (F := Ideal) x2)
    (h54 : Wp (Proc.devRef .tc main_v54) = val_main_v56 (F := Ideal) x1 x2) :
    StableHlo.after hostOps2_2 Wp (Proc.devRef .tc main_v70) = val_main_v72 (F := Ideal) x1 x2 := by
  simp only [hostOps2_2]; after_results_simp; rw [h3, h6, h8, h54]; rfl

theorem keep2_2 (b : Ref sig .tc) (hb : b ∈ kept) :
    StableHlo.after hostOps2_2 Wp (Proc.devRef .tc b) = Wp (Proc.devRef .tc b) := by
  kept_through hostOps2_2 by hb

/-! ## The aggregation of the second product, and the bias row -/

theorem s3_v84 (h3 : Wp (Proc.devRef .tc main_v3) = val_main_v3 (F := Ideal) x1)
    (h6 : Wp (Proc.devRef .tc main_v6) = val_main_v6 (F := Ideal) x1)
    (h70 : Wp (Proc.devRef .tc main_v70) = val_main_v72 (F := Ideal) x1 x2)
    (h71 : Wp (Proc.devRef .tc main_v71) = val_main_v73 (F := Ideal) x0 x1 x2 x3 x4 x5) :
    StableHlo.after hostOps3 Wp (Proc.devRef .tc main_v84) = val_main_v86 (F := Ideal) x0 x1 x2 x3 x4 x5 := by
  simp only [hostOps3, StableHlo.after_cons, StableHlo.after_nil]
  rw [StableHlo.reshape_result_ne]; rotate_left; decide
  after_results_simp; rw [h3, h6, h70, h71]; rfl

theorem s3_v85 (h : Wp (Proc.devRef .tc main_arg6) = x6) :
    StableHlo.after hostOps3 Wp (Proc.devRef .tc main_v85) = shapeCast S1x64 x6 shapeCasts_S64_S1x64 := by
  simp only [hostOps3, StableHlo.after_cons, StableHlo.after_nil]
  rw [StableHlo.reshape_result]
  after_results_simp; rw [h]; rfl

theorem keep3 (b : Ref sig .tc) (hb : b ∈ kept) :
    StableHlo.after hostOps3 Wp (Proc.devRef .tc b) = Wp (Proc.devRef .tc b) := by
  kept_through hostOps3 by hb

end Cert.KernelIdeal.Host

end
-- ==== Proof.Dense2.lean ====
/-
  The second layer's dense product, read off its region.

  The third pallas_call multiplies the first layer's activations H₁ (100000 rows of 64) by the weight matrix W₂ (64 by
  64) in ten row blocks of 10000 rows, exactly as the first does X by W₁: at grid point t the body reads rows
  10000 t … 10000 t + 9999 of H₁ and all of W₂ and stores their product, the roundings to bf16 the identity over the
  extended reals and the product into zero the sum ∑ₖ h[p,k]·w[k,q]. The ten blocks tile the rows, so after the region
  the output array has the entry ∑ₖ H₁[n,k]·W₂[k,q] at (n, q).
-/
import proofs.«152764_j53214644797577_1_alg».proof.Proof.Gen.KernelIdeal.Frame
import proofs.«152764_j53214644797577_1_alg».proof.Proof.LibMatmul
import proofs.«152764_j53214644797577_1_alg».proof.Proof.DenseSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Dense

open Cert.KernelIdeal Cert.KernelIdeal.Gen

variable (V : (c : Dev nD) → (b : Ref sig .tc) → Buf (Elt Ideal) ((c : Thread nD τ).loc b))

/-! ## Region 2: H₁ · W₂ -/

/-- The body's stored value at (p, q): the cast of the row block to its own shape is the identity, the two roundings to bf16
    vanish over the extended reals and the product into a zero accumulator is the sum over the shared axis. -/
theorem pay2_apply (l : Vec Ideal S10000x64 .f32) (r : Vec Ideal S64x64 .f32) (p : Fin 10000) (q : Fin 64) :
    k2_pay1 l r (ix2 p q) = ∑ k : Fin 64, l (ix2 p k) * r (ix2 k q) := by
  unfold k2_pay1
  rw [shapeCast_self]
  exact Cert.LibMatmul.matmul_zero_ix2 _ none _ _ p q

/-- Where the three windows' blocks sit at a grid point: the two row windows at block row t, the weights at the origin. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row window's block at point t is rows 10000 t … 10000 t + 9999 of its array. -/
theorem xblk2 (c : Dev nD) (t : Fin cfg2.N) (y : S10000x64.Idx) (i : S100000x64.Idx)
    (h0 : (i 0).val = t.val * 10000 + (y 0).val) (h1 : (i 1).val = (y 1).val) :
    iblk2 V c 0 t y = V c main_v47 i := by
  obtain ⟨e0, e1, -⟩ := idx2 t
  show V c main_v47 (((cfg2.win 0).blk t).view.emb y) = V c main_v47 i
  congr 1
  funext a; apply Fin.ext
  match a with
  | ⟨0, _⟩ => show win2_0.index t (0 : Fin 2) * 10000 + 1 * (y 0).val = (i 0).val; omega
  | ⟨1, _⟩ => show win2_0.index t (1 : Fin 2) * 64 + 1 * (y 1).val = (i 1).val; omega

/-- The weight window's block at every point is the whole weight matrix. -/
theorem wblk2 (c : Dev nD) (t : Fin cfg2.N) (y : S64x64.Idx) :
    iblk2 V c 1 t y = V c main_arg5 y := by
  obtain ⟨-, -, e2, e3, -⟩ := idx2 t
  show V c main_arg5 (((cfg2.win 1).blk t).view.emb y) = V c main_arg5 y
  congr 1
  funext a; apply Fin.ext
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- What point t writes back is block t of the product of the two arrays as the region finds them. -/
theorem flushed2 (c : Dev nD) (t : Fin cfg2.N) :
    (dat2 V c).flushed 2 t = ((cfg2.win 2).blk t).view.read (Elt Ideal) (rowsDot (V c main_v47) (V c main_arg5)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨-, -, -, -, e4, e5⟩ := idx2 t
  funext j
  obtain ⟨p, q, rfl⟩ : ∃ (p : Fin 10000) (q : Fin 64), j = ix2 p q := ⟨j 0, j 1, eq_ix2 j⟩
  show k2_pay1 (iblk2 V c 0 t) (iblk2 V c 1 t) (ix2 p q) = rowsDot (V c main_v47) (V c main_arg5) (((cfg2.win 2).blk t).view.emb (ix2 p q))
  rw [pay2_apply]
  unfold rowsDot
  refine Finset.sum_congr rfl fun k _ => ?_
  rw [wblk2 V c t (ix2 k q)]
  rw [xblk2 V c t (ix2 p k) (ix2 ⟨((((cfg2.win 2).blk t).view.emb (ix2 p q)) 0).val, idx2_lt0 _⟩ k) ?_ rfl]
  · refine congrArg _ (congrArg _ ?_)
    funext a; apply Fin.ext
    match a with
    | ⟨0, _⟩ => rfl
    | ⟨1, _⟩ => show q.val = win2_2.index t (1 : Fin 2) * 64 + 1 * q.val; omega
  · show win2_2.index t (0 : Fin 2) * 10000 + 1 * p.val = t.val * 10000 + p.val; omega

/-- An index of the output array lies in point t's block iff each coordinate lies in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v71).slice (win2_2.rect t)).set ↔ _
  rw [View.set_slice_whole, Rect.mem_set_unit]
  exact Iff.rfl

/-- The ten row blocks tile the array: row n lies in block n / 10000. -/
theorem cover2 (i : S100000x64.Idx) :
    ∃ t : Fin cfg2.N, (cfg2.win 2).flush t = true ∧ i ∈ ((cfg2.win 2).blk t).view.set := by
  have hi0 : (i 0).val < 100000 := idx2_lt0 i
  have hi1 : (i 1).val < 64 := idx2_lt1 i
  have hN : cfg2.N = 10 := N_2
  have ht : (i 0).val / 10000 < cfg2.N := by rw [hN]; omega
  have e := idx2 ⟨(i 0).val / 10000, ht⟩
  have e4 : win2_2.index ⟨(i 0).val / 10000, ht⟩ (0 : Fin 2) = (i 0).val / 10000 := e.2.2.2.2.1
  have e5 : win2_2.index ⟨(i 0).val / 10000, ht⟩ (1 : Fin 2) = 0 := e.2.2.2.2.2
  refine ⟨⟨(i 0).val / 10000, ht⟩, flush2_2 _, ?_⟩
  rw [mem_blk2]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]; omega
  | ⟨1, _⟩ =>
    show win2_2.index ⟨(i 0).val / 10000, ht⟩ (1 : Fin 2) * 64 ≤ (i 1).val ∧ (i 1).val < win2_2.index ⟨(i 0).val / 10000, ht⟩ (1 : Fin 2) * 64 + 64
    rw [e5]; omega

/-- After the region its output array is the product of the two input arrays as the region found them. -/
theorem final2 (c : Dev nD) : (dat2 V c).arrAt 2 cfg2.N = rowsDot (V c main_v47) (V c main_arg5) :=
  (dat2 V c).arrAt_eq_of_cover 2 (rowsDot (V c main_v47) (V c main_arg5)) (fun t _ => flushed2 V c t) cover2

end Cert.KernelIdeal.Dense

end
-- ==== Proof.Bias3.lean ====
/-
  The second layer's epilogue, read off its region.

  The fourth pallas_call adds the bias row b₂ (1 by 64) to every row of the second layer's aggregated array A (100000
  rows of 64) and takes the larger of each entry and zero, in ten row blocks of 10000 rows, exactly as the second
  pallas_call does for the first layer: at grid point t the body stores max(a[p,q] + b[0,q], 0) for rows
  10000 t … 10000 t + 9999. The ten blocks tile the rows, so after the region the output array is max(A[n,q] + b[0,q], 0).
-/
import proofs.«152764_j53214644797577_1_alg».proof.Proof.Gen.KernelIdeal.Frame
import proofs.«152764_j53214644797577_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Dense

open Cert.KernelIdeal Cert.KernelIdeal.Gen

variable (V : (c : Dev nD) → (b : Ref sig .tc) → Buf (Elt Ideal) ((c : Thread nD τ).loc b))

/-! ## Region 3: max(A + b₂, 0) -/

/-- The body's stored value at (p, q): the block's entry plus the bias row's entry of column q, and the larger of that and zero. -/
theorem pay3_apply (a : Vec Ideal S10000x64 .f32) (b : Vec Ideal S1x64 .f32) (p : Fin 10000) (q : Fin 64) :
    k3_pay1 a b (ix2 p q) = max (a (ix2 p q) + b (ix2 (0 : Fin 1) q)) (Ideal.ofBits .f32 0x00000000#32) := by
  unfold k3_pay1
  rw [shapeCast_self, shapeCast_self]
  show max (a (ix2 p q) + broadcastTo S10000x64 b broadcasts_S1x64_S10000x64 (ix2 p q)) _ = _
  rw [broadcastTo_1b_ab_apply]
  rfl

/-- Where the three windows' blocks sit at a grid point: the two row windows at block row t, the bias row at the origin. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The row window's block at point t is rows 10000 t … 10000 t + 9999 of its array. -/
theorem ablk3 (c : Dev nD) (t : Fin cfg3.N) (y : S10000x64.Idx) (i : S100000x64.Idx)
    (h0 : (i 0).val = t.val * 10000 + (y 0).val) (h1 : (i 1).val = (y 1).val) :
    iblk3 V c 0 t y = V c main_v84 i := by
  obtain ⟨e0, e1, -⟩ := idx3 t
  show V c main_v84 (((cfg3.win 0).blk t).view.emb y) = V c main_v84 i
  congr 1
  funext a; apply Fin.ext
  match a with
  | ⟨0, _⟩ => show win3_0.index t (0 : Fin 2) * 10000 + 1 * (y 0).val = (i 0).val; omega
  | ⟨1, _⟩ => show win3_0.index t (1 : Fin 2) * 64 + 1 * (y 1).val = (i 1).val; omega

/-- The bias window's block at every point is the whole bias row. -/
theorem bblk3 (c : Dev nD) (t : Fin cfg3.N) (y : S1x64.Idx) :
    iblk3 V c 1 t y = V c main_v85 y := by
  obtain ⟨-, -, e2, e3, -⟩ := idx3 t
  show V c main_v85 (((cfg3.win 1).blk t).view.emb y) = V c main_v85 y
  congr 1
  funext a; apply Fin.ext
  match a with
  | ⟨0, _⟩ => show win3_1.index t (0 : Fin 2) * 1 + 1 * (y 0).val = (y 0).val; omega
  | ⟨1, _⟩ => show win3_1.index t (1 : Fin 2) * 64 + 1 * (y 1).val = (y 1).val; omega

/-- What point t writes back is block t of the biased, clamped array of the two arrays as the region finds them. -/
theorem flushed3 (c : Dev nD) (t : Fin cfg3.N) :
    (dat3 V c).flushed 2 t = ((cfg3.win 2).blk t).view.read (Elt Ideal) (addRowPos (V c main_v84) (V c main_v85)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨-, -, -, -, e4, e5⟩ := idx3 t
  funext j
  obtain ⟨p, q, rfl⟩ : ∃ (p : Fin 10000) (q : Fin 64), j = ix2 p q := ⟨j 0, j 1, eq_ix2 j⟩
  show k3_pay1 (iblk3 V c 0 t) (iblk3 V c 1 t) (ix2 p q) = addRowPos (V c main_v84) (V c main_v85) (((cfg3.win 2).blk t).view.emb (ix2 p q))
  rw [pay3_apply]
  unfold addRowPos
  have hq : ix2 (0 : Fin 1) (⟨((((cfg3.win 2).blk t).view.emb (ix2 p q)) 1).val, idx2_lt1 _⟩ : Fin 64) = ix2 (0 : Fin 1) q := by
    funext a; apply Fin.ext
    match a with
    | ⟨0, _⟩ => rfl
    | ⟨1, _⟩ => show win3_2.index t (1 : Fin 2) * 64 + 1 * q.val = q.val; omega
  rw [hq, bblk3 V c t (ix2 (0 : Fin 1) q), ablk3 V c t (ix2 p q) (((cfg3.win 2).blk t).view.emb (ix2 p q)) ?_ ?_]
  · show win3_2.index t (0 : Fin 2) * 10000 + 1 * p.val = t.val * 10000 + p.val; omega
  · show win3_2.index t (1 : Fin 2) * 64 + 1 * q.val = q.val; omega

/-- An index of the output array lies in point t's block iff each coordinate lies in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v86).slice (win3_2.rect t)).set ↔ _
  rw [View.set_slice_whole, Rect.mem_set_unit]
  exact Iff.rfl

/-- The ten row blocks tile the array: row n lies in block n / 10000. -/
theorem cover3 (i : S100000x64.Idx) :
    ∃ t : Fin cfg3.N, (cfg3.win 2).flush t = true ∧ i ∈ ((cfg3.win 2).blk t).view.set := by
  have hi0 : (i 0).val < 100000 := idx2_lt0 i
  have hi1 : (i 1).val < 64 := idx2_lt1 i
  have hN : cfg3.N = 10 := N_3
  have ht : (i 0).val / 10000 < cfg3.N := by rw [hN]; omega
  have e := idx3 ⟨(i 0).val / 10000, ht⟩
  have e4 : win3_2.index ⟨(i 0).val / 10000, ht⟩ (0 : Fin 2) = (i 0).val / 10000 := e.2.2.2.2.1
  have e5 : win3_2.index ⟨(i 0).val / 10000, ht⟩ (1 : Fin 2) = 0 := e.2.2.2.2.2
  refine ⟨⟨(i 0).val / 10000, ht⟩, flush3_2 _, ?_⟩
  rw [mem_blk3]
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [e4]; omega
  | ⟨1, _⟩ =>
    show win3_2.index ⟨(i 0).val / 10000, ht⟩ (1 : Fin 2) * 64 ≤ (i 1).val ∧ (i 1).val < win3_2.index ⟨(i 0).val / 10000, ht⟩ (1 : Fin 2) * 64 + 64
    rw [e5]; omega

/-- After the region its output array is the biased, clamped array of the two input arrays as the region found them. -/
theorem final3 (c : Dev nD) : (dat3 V c).arrAt 2 cfg3.N = addRowPos (V c main_v84) (V c main_v85) :=
  (dat3 V c).arrAt_eq_of_cover 2 (addRowPos (V c main_v84) (V c main_v85)) (fun t _ => flushed3 V c t) cover3

end Cert.KernelIdeal.Dense

end
-- ==== Proof.Track2.lean ====
/-
  The second layer, boundary by boundary.

  From the first layer's activations H₁ to the second layer's: the degrees, their inverse square roots and the edges'
  normalisation computed again from the same edge vectors, the product H₁·W₂ (the third region's ten row blocks are the
  whole product), its aggregation over the edges, and max(aggregate + b₂, 0) (the fourth region's blocks). At each
  boundary the buffers that matter hold the reference's stages of the launch arguments; the arguments and the three
  edge vectors pass every stretch and region unchanged, and H₁ passes the three stretches before its product.
-/
import proofs.«152764_j53214644797577_1_alg».proof.Proof.Gen.KernelIdeal.Frame
import proofs.«152764_j53214644797577_1_alg».proof.Proof.Track1
import proofs.«152764_j53214644797577_1_alg».proof.Proof.HostL2
import proofs.«152764_j53214644797577_1_alg».proof.Proof.Dense2
import proofs.«152764_j53214644797577_1_alg».proof.Proof.Bias3
import proofs.«152764_j53214644797577_1_alg».proof.Proof.RefDot
import proofs.«152764_j53214644797577_1_alg».proof.Proof.RefBias

set_option maxRecDepth 16384

noncomputable section

open Idealize.ShloMosaic Idealize.ShloMosaic.TcCoe Idealize.SL.Sem Idealize.ShloMosaic.StableHlo
open Idealize.ShloMosaic.Pipeline (Dat)

namespace Cert.KernelIdeal.Track

open Cert.KernelIdeal Cert.KernelIdeal.Gen Cert.KernelIdeal.Host Cert.KernelIdeal.Dense
open Cert.ReferenceIdeal.Read Cert.ReferenceIdeal.Args Cert.ReferenceIdeal.Dense

variable (m : (ℓ : Loc nD τ sig) → Buf (Elt Ideal) ℓ) (ρ : Dev nD → PrngReg) (c : Dev nD)

/-! ## The edges' normalisation again -/

theorem w6_v3 : W6 m ρ c (Proc.devRef .tc main_v3) = val_main_v3 (F := Ideal) (a1 m c) :=
  (st6 m ρ c main_v3 (by decide)).trans (w3_v3 m ρ c)
theorem w6_v6 : W6 m ρ c (Proc.devRef .tc main_v6) = val_main_v6 (F := Ideal) (a1 m c) :=
  (st6 m ρ c main_v6 (by decide)).trans (w3_v6 m ρ c)
theorem w6_v8 : W6 m ρ c (Proc.devRef .tc main_v8) = val_main_v8 (F := Ideal) (a2 m c) :=
  (st6 m ρ c main_v8 (by decide)).trans (w3_v8 m ρ c)

theorem w7_v52 : W7 m ρ c (Proc.devRef .tc main_v52) = val_main_v54 (F := Ideal) (a1 m c) (a2 m c) :=
  s2_v52 (W6 m ρ c) (a1 m c) (a2 m c) (w6_v6 m ρ c) (w6_v8 m ρ c)
theorem w7_v53 : W7 m ρ c (Proc.devRef .tc main_v53) = val_main_v55 (F := Ideal) (a1 m c) (a2 m c) :=
  s2_v53 (W6 m ρ c) (a1 m c) (a2 m c) (w6_v6 m ρ c) (w6_v8 m ρ c)
theorem w7_cst_11 : W7 m ρ c (Proc.devRef .tc main_cst_11) = val_main_cst_11 (F := Ideal) := s2_cst_11 (W6 m ρ c)

theorem w8_v54 : W8 m ρ c (Proc.devRef .tc main_v54) = val_main_v56 (F := Ideal) (a1 m c) (a2 m c) :=
  s21_v54 (W7 m ρ c) (a1 m c) (a2 m c) (w7_v52 m ρ c) (w7_v53 m ρ c) (w7_cst_11 m ρ c)

/-- A long-lived buffer passes the three stretches. -/
theorem k9 (b : Ref sig .tc) (hb : b ∈ kept) : W9 m ρ c (Proc.devRef .tc b) = W6 m ρ c (Proc.devRef .tc b) :=
  ((keep2_2 (W8 m ρ c) b hb).trans (keep2_1 (W7 m ρ c) b hb)).trans (keep2 (W6 m ρ c) b hb)
/-- …and so do the first two. -/
theorem k8 (b : Ref sig .tc) (hb : b ∈ kept) : W8 m ρ c (Proc.devRef .tc b) = W6 m ρ c (Proc.devRef .tc b) :=
  (keep2_1 (W7 m ρ c) b hb).trans (keep2 (W6 m ρ c) b hb)

theorem w9_v70 : W9 m ρ c (Proc.devRef .tc main_v70) = val_main_v72 (F := Ideal) (a1 m c) (a2 m c) :=
  s22_v70 (W8 m ρ c) (a1 m c) (a2 m c) ((k8 m ρ c main_v3 (by decide)).trans (w6_v3 m ρ c))
    ((k8 m ρ c main_v6 (by decide)).trans (w6_v6 m ρ c)) ((k8 m ρ c main_v8 (by decide)).trans (w6_v8 m ρ c)) (w8_v54 m ρ c)

theorem st9 (b : Ref sig .tc) (hb : b ∈ stable) : W9 m ρ c (Proc.devRef .tc b) = W3 m ρ c (Proc.devRef .tc b) :=
  (k9 m ρ c b (stable_sub_kept b hb)).trans (st6 m ρ c b hb)

theorem w9_v47 : W9 m ρ c (Proc.devRef .tc main_v47)
    = val_main_v49 (F := Ideal) (a0 m c) (a1 m c) (a2 m c) (a3 m c) (a4 m c) :=
  (k9 m ρ c main_v47 (by decide)).trans (w6_v47 m ρ c)

/-! ## The third region: H₁ · W₂ -/

/-- After the third region its output array is the reference's second product. -/
theorem w10_v71 : W10 m ρ c (Proc.devRef .tc main_v71)
    = val_main_v73 (F := Ideal) (a0 m c) (a1 m c) (a2 m c) (a3 m c) (a4 m c) (a5 m c) := by
  refine (W10_arr m ρ c 2).trans ((final2 (V9 m ρ) c).trans ?_)
  rw [show V9 m ρ c main_v47 = _ from w9_v47 m ρ c,
    show V9 m ρ c main_arg5 = a5 m c from (st9 m ρ c main_arg5 (by decide)).trans (w3_arg m ρ c main_arg5 (by decide))]
  exact (dot2 _ _ _ _ _ _).symm

/-- The third region leaves every long-lived buffer as it found it. -/
theorem st10 (b : Ref sig .tc) (hb : b ∈ stable) : W10 m ρ c (Proc.devRef .tc b) = W3 m ρ c (Proc.devRef .tc b) := by
  refine Eq.trans ?_ (st9 m ρ c b hb)
  simp only [stable, List.mem_cons, List.mem_nil_iff, or_false] at hb
  rcases hb with rfl | rfl | rfl | rfl | rfl | rfl | rfl | rfl | rfl | rfl | rfl | rfl | rfl | rfl
  all_goals first
    | exact W10_of_ne m ρ c _ (by decide)
    | exact (W10_arr m ρ c 1).trans (((dat2 (V9 m ρ) c).arrAt_in 1 rfl _).trans (A_eq2 (V9 m ρ) c 1))

theorem w10_v70 : W10 m ρ c (Proc.devRef .tc main_v70) = val_main_v72 (F := Ideal) (a1 m c) (a2 m c) :=
  (W10_of_ne m ρ c main_v70 (by decide)).trans (w9_v70 m ρ c)

/-! ## The aggregation and the bias row -/

theorem w11_v84 : W11 m ρ c (Proc.devRef .tc main_v84)
    = val_main_v86 (F := Ideal) (a0 m c) (a1 m c) (a2 m c) (a3 m c) (a4 m c) (a5 m c) :=
  s3_v84 (W10 m ρ c) (a0 m c) (a1 m c) (a2 m c) (a3 m c) (a4 m c) (a5 m c)
    ((st10 m ρ c main_v3 (by decide)).trans (w3_v3 m ρ c)) ((st10 m ρ c main_v6 (by decide)).trans (w3_v6 m ρ c))
    (w10_v70 m ρ c) (w10_v71 m ρ c)

theorem w11_v85 : W11 m ρ c (Proc.devRef .tc main_v85) = shapeCast S1x64 (a6 m c) shapeCasts_S64_S1x64 :=
  s3_v85 (W10 m ρ c) (a6 m c) ((st10 m ρ c main_arg6 (by decide)).trans (w3_arg m ρ c main_arg6 (by decide)))

theorem st11 (b : Ref sig .tc) (hb : b ∈ stable) : W11 m ρ c (Proc.devRef .tc b) = W3 m ρ c (Proc.devRef .tc b) :=
  (keep3 (W10 m ρ c) b (stable_sub_kept b hb)).trans (st10 m ρ c b hb)

/-! ## The fourth region: max(aggregate + b₂, 0) -/

/-- After the fourth region its output array is the reference's second layer: the activations H₂. -/
theorem w12_v86 : W12 m ρ c (Proc.devRef .tc main_v86)
    = val_main_v90 (F := Ideal) (a0 m c) (a1 m c) (a2 m c) (a3 m c) (a4 m c) (a5 m c) (a6 m c) := by
  refine (W12_arr m ρ c 2).trans ((final3 (V11 m ρ) c).trans ?_)
  rw [show V11 m ρ c main_v84 = _ from w11_v84 m ρ c, show V11 m ρ c main_v85 = _ from w11_v85 m ρ c]
  exact (bias2 _ _ _ _ _ _ _ _).symm

/-- The fourth region writes its output array only; no long-lived buffer is among its arrays. -/
theorem st12 (b : Ref sig .tc) (hb : b ∈ stable) : W12 m ρ c (Proc.devRef .tc b) = W3 m ρ c (Proc.devRef .tc b) := by
  refine Eq.trans ?_ (st11 m ρ c b hb)
  simp only [stable, List.mem_cons, List.mem_nil_iff, or_false] at hb
  rcases hb with rfl | rfl | rfl | rfl | rfl | rfl | rfl | rfl | rfl | rfl | rfl | rfl | rfl | rfl
  all_goals exact W12_of_ne m ρ c _ (by decide)

end Cert.KernelIdeal.Track

end
-- ==== Proof.HostL3.lean ====
/-
  The third layer's host stretches and the final linear layer's, one at a time.

  Between the second layer's epilogue and the third product the kernel's @main computes the degrees, their inverse square
  roots and the edges' normalisation a third time, and after the product H₂·W₃ gathers its rows (32 wide) at the sources,
  scales them and sums them into the targets, and lays the third bias vector out as a row; before the last pallas_call it
  lays the final bias vector out as a row. The reference prints the same operations, four places later in its numbering.
  Each stretch is read from ANY contents of the buffers it starts from.
-/
import proofs.«152764_j53214644797577_1_alg».proof.Proof.Gen.KernelIdeal.Launch
import proofs.«152764_j53214644797577_1_alg».proof.Proof.Args
import proofs.«152764_j53214644797577_1_alg».proof.Proof.HostKept
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen Cert.ReferenceIdeal.Read Cert.ReferenceIdeal.Args

variable (Wp : Valuation τ sig (Elt Ideal))
variable (x0 : A0) (x1 : A1) (x2 : A2) (x3 : A3) (x4 : A4) (x5 : A5) (x6 : A6) (x7 : A7) (x8 : A8) (x9 : A9) (x10 : A10)

/-! ## The degrees a third time -/

theorem s4_v91 (h6 : Wp (Proc.devRef .tc main_v6) = val_main_v6 (F := Ideal) x1)
    (h8 : Wp (Proc.devRef .tc main_v8) = val_main_v8 (F := Ideal) x2) :
    StableHlo.after hostOps4 Wp (Proc.devRef .tc main_v91) = val_main_v95 (F := Ideal) x1 x2 := by
  simp only [hostOps4]; after_results_simp; rw [h6, h8]; rfl

theorem s4_v92 (h6 : Wp (Proc.devRef .tc main_v6) = val_main_v6 (F := Ideal) x1)
    (h8 : Wp (Proc.devRef .tc main_v8) = val_main_v8 (F := Ideal) x2) :
    StableHlo.after hostOps4 Wp (Proc.devRef .tc main_v92) = val_main_v96 (F := Ideal) x1 x2 := by
  simp only [hostOps4]; after_results_simp; rw [h6, h8]; rfl

theorem s4_cst_21 : StableHlo.after hostOps4 Wp (Proc.devRef .tc main_cst_21) = val_main_cst_21 (F := Ideal) := by
  simp only [hostOps4]; after_results_simp; rfl

theorem keep4 (b : Ref sig .tc) (hb : b ∈ kept) :
    StableHlo.after hostOps4 Wp (Proc.devRef .tc b) = Wp (Proc.devRef .tc b) := by
  kept_through hostOps4 by hb

/-! ## The choice between the inverse square root and zero -/

/-- The choice read over any contents: the flag's buffer chooses between the inverse square root's and the zero splat. -/
theorem s41_v93_raw :
    StableHlo.after hostOps4_1 Wp (Proc.devRef .tc main_v93)
      = select (Wp (Proc.devRef .tc main_v91)) (Wp (Proc.devRef .tc main_v92))
          (broadcastInDim S100000 ![] bcast_S_S100000 (id (Wp (Proc.devRef .tc main_cst_21)))) := by
  simp only [hostOps4_1]; after_results_simp; rfl

theorem s41_v93 (h91 : Wp (Proc.devRef .tc main_v91) = val_main_v95 (F := Ideal) x1 x2)
    (h92 : Wp (Proc.devRef .tc main_v92) = val_main_v96 (F := Ideal) x1 x2)
    (hc : Wp (Proc.devRef .tc main_cst_21) = val_main_cst_21 (F := Ideal)) :
    StableHlo.after hostOps4_1 Wp (Proc.devRef .tc main_v93) = val_main_v97 (F := Ideal) x1 x2 := by
  rw [s41_v93_raw, h91, h92, hc]; rfl

theorem keep4_1 (b : Ref sig .tc) (hb : b ∈ kept) :
    StableHlo.after hostOps4_1 Wp (Proc.devRef .tc b) = Wp (Proc.devRef .tc b) := by
  kept_through hostOps4_1 by hb

/-! ## The edges' normalisation -/

theorem s42_v109 (h3 : Wp (Proc.devRef .tc main_v3) = val_main_v3 (F := Ideal) x1)
    (h6 : Wp (Proc.devRef .tc main_v6) = val_main_v6 (F := Ideal) x1)
    (h8 : Wp (Proc.devRef .tc main_v8) = val_main_v8 (F := Ideal) x2)
    (h93 : Wp (Proc.devRef .tc main_v93) = val_main_v97 (F := Ideal) x1 x2) :
    StableHlo.after hostOps4_2 Wp (Proc.devRef .tc main_v109) = val_main_v113 (F := Ideal) x1 x2 := by
  simp only [hostOps4_2]; after_results_simp; rw [h3, h6, h8, h93]; rfl

theorem keep4_2 (b : Ref sig .tc) (hb : b ∈ kept) :
    StableHlo.after hostOps4_2 Wp (Proc.devRef .tc b) = Wp (Proc.devRef .tc b) := by
  kept_through hostOps4_2 by hb

/-! ## The aggregation of the third product, and the bias row -/

theorem s5_v123 (h3 : Wp (Proc.devRef .tc main_v3) = val_main_v3 (F := Ideal) x1)
    (h6 : Wp (Proc.devRef .tc main_v6) = val_main_v6 (F := Ideal) x1)
    (h109 : Wp (Proc.devRef .tc main_v109) = val_main_v113 (F := Ideal) x1 x2)
    (h110 : Wp (Proc.devRef .tc main_v110) = val_main_v114 (F := Ideal) x0 x1 x2 x3 x4 x5 x6 x7) :
    StableHlo.after hostOps5 Wp (Proc.devRef .tc main_v123) = val_main_v127 (F := Ideal) x0 x1 x2 x3 x4 x5 x6 x7 := by
  simp only [hostOps5, StableHlo.after_cons, StableHlo.after_nil]
  rw [StableHlo.reshape_result_ne]; rotate_left; decide
  after_results_simp; rw [h3, h6, h109, h110]; rfl

theorem s5_v124 (h : Wp (Proc.devRef .tc main_arg8) = x8) :
    StableHlo.after hostOps5 Wp (Proc.devRef .tc main_v124) = shapeCast S1x32 x8 shapeCasts_S32_S1x32 := by
  simp only [hostOps5, StableHlo.after_cons, StableHlo.after_nil]
  rw [StableHlo.reshape_result]
  after_results_simp; rw [h]; rfl

theorem keep5 (b : Ref sig .tc) (hb : b ∈ kept) :
    StableHlo.after hostOps5 Wp (Proc.devRef .tc b) = Wp (Proc.devRef .tc b) := by
  kept_through hostOps5 by hb

/-! ## The final bias row -/

theorem s6_v126 (h : Wp (Proc.devRef .tc main_arg10) = x10) :
    StableHlo.after hostOps6 Wp (Proc.devRef .tc main_v126) = shapeCast S1x32 x10 shapeCasts_S32_S1x32 := by
  simp only [hostOps6, StableHlo.after_cons, StableHlo.after_nil]
  rw [StableHlo.reshape_result]
  rw [h]; rfl

theorem keep6 (b : Ref sig .tc) (hb : b ∈ kept) :
    StableHlo.after hostOps6 Wp (Proc.devRef .tc b) = Wp (Proc.devRef .tc b) := by
  kept_through hostOps6 by hb

end Cert.KernelIdeal.Host

end
-- ==== Proof.Dense4.lean ====
/-
  The third layer's dense product, read off its region.

  The fifth pallas_call multiplies the second layer's activations H₂ (100000 rows of 64) by the weight matrix W₃ (64 by
  32) in ten row blocks of 10000 rows: at grid point t the body reads rows 10000 t … 10000 t + 9999 of H₂ and all of
  W₃ and stores their product, the roundings to bf16 the identity over the extended reals and the product into zero the
  sum ∑ₖ h[p,k]·w[k,q]. The ten blocks tile the rows, so after the region the output array, 100000 rows of 32, has the
  entry ∑ₖ H₂[n,k]·W₃[k,q] at (n, q).
-/
import proofs.«152764_j53214644797577_1_alg».proof.Proof.Gen.KernelIdeal.Frame
import proofs.«152764_j53214644797577_1_alg».proof.Proof.LibMatmul
import proofs.«152764_j53214644797577_1_alg».proof.Proof.DenseSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Dense

open Cert.KernelIdeal Cert.KernelIdeal.Gen

variable (V : (c : Dev nD) → (b : Ref sig .tc) → Buf (Elt Ideal) ((c : Thread nD τ).loc b))

/-! ## Region 4: H₂ · W₃ -/

/-- The body's stored value at (p, q): the cast of the row block to its own shape is the identity, the two roundings to bf16
    vanish over the extended reals and the product into a zero accumulator is the sum over the shared axis. -/
theorem pay4_apply (l : Vec Ideal S10000x64 .f32) (r : Vec Ideal S64x32 .f32) (p : Fin 10000) (q : Fin 32) :
    k4_pay1 l r (ix2 p q) = ∑ k : Fin 64, l (ix2 p k) * r (ix2 k q) := by
  unfold k4_pay1
  rw [shapeCast_self]
  exact Cert.LibMatmul.matmul_zero_ix2 _ none _ _ p q

/-- Where the three windows' blocks sit at a grid point: the two row windows at block row t, the weights at the origin. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The row window's block at point t is rows 10000 t … 10000 t + 9999 of its array. -/
theorem xblk4 (c : Dev nD) (t : Fin cfg4.N) (y : S10000x64.Idx) (i : S100000x64.Idx)
    (h0 : (i 0).val = t.val * 10000 + (y 0).val) (h1 : (i 1).val = (y 1).val) :
    iblk4 V c 0 t y = V c main_v86 i := by
  obtain ⟨e0, e1, -⟩ := idx4 t
  show V c main_v86 (((cfg4.win 0).blk t).view.emb y) = V c main_v86 i
  congr 1
  funext a; apply Fin.ext
  match a with
  | ⟨0, _⟩ => show win4_0.index t (0 : Fin 2) * 10000 + 1 * (y 0).val = (i 0).val; omega
  | ⟨1, _⟩ => show win4_0.index t (1 : Fin 2) * 64 + 1 * (y 1).val = (i 1).val; omega

/-- The weight window's block at every point is the whole weight matrix. -/
theorem wblk4 (c : Dev nD) (t : Fin cfg4.N) (y : S64x32.Idx) :
    iblk4 V c 1 t y = V c main_arg7 y := by
  obtain ⟨-, -, e2, e3, -⟩ := idx4 t
  show V c main_arg7 (((cfg4.win 1).blk t).view.emb y) = V c main_arg7 y
  congr 1
  funext a; apply Fin.ext
  match a with
  | ⟨0, _⟩ => show win4_1.index t (0 : Fin 2) * 64 + 1 * (y 0).val = (y 0).val; omega
  | ⟨1, _⟩ => show win4_1.index t (1 : Fin 2) * 32 + 1 * (y 1).val = (y 1).val; omega

/-- What point t writes back is block t of the product of the two arrays as the region finds them. -/
theorem flushed4 (c : Dev nD) (t : Fin cfg4.N) :
    (dat4 V c).flushed 2 t = ((cfg4.win 2).blk t).view.read (Elt Ideal) (rowsDot (V c main_v86) (V c main_arg7)) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x32) hz]
  obtain ⟨-, -, -, -, e4, e5⟩ := idx4 t
  funext j
  obtain ⟨p, q, rfl⟩ : ∃ (p : Fin 10000) (q : Fin 32), j = ix2 p q := ⟨j 0, j 1, eq_ix2 j⟩
  show k4_pay1 (iblk4 V c 0 t) (iblk4 V c 1 t) (ix2 p q) = rowsDot (V c main_v86) (V c main_arg7) (((cfg4.win 2).blk t).view.emb (ix2 p q))
  rw [pay4_apply]
  unfold rowsDot
  refine Finset.sum_congr rfl fun k _ => ?_
  rw [wblk4 V c t (ix2 k q)]
  rw [xblk4 V c t (ix2 p k) (ix2 ⟨((((cfg4.win 2).blk t).view.emb (ix2 p q)) 0).val, idx2_lt0 _⟩ k) ?_ rfl]
  · refine congrArg _ (congrArg _ ?_)
    funext a; apply Fin.ext
    match a with
    | ⟨0, _⟩ => rfl
    | ⟨1, _⟩ => show q.val = win4_2.index t (1 : Fin 2) * 32 + 1 * q.val; omega
  · show win4_2.index t (0 : Fin 2) * 10000 + 1 * p.val = t.val * 10000 + p.val; omega

/-- An index of the output array lies in point t's block iff each coordinate lies in the block's range on its axis. -/
theorem mem_blk4 (t : Fin cfg4.N) (i : S100000x32.Idx) :
    i ∈ ((cfg4.win 2).blk t).view.set ↔ ∀ a : Fin 2, win4_2.index t a * S10000x32.size a ≤ (i a).val ∧ (i a).val < win4_2.index t a * S10000x32.size a + S10000x32.size a := by
  show i ∈ ((View.whole main_v110).slice (win4_2.rect t)).set ↔ _
  rw [View.set_slice_whole, Rect.mem_set_unit]
  exact Iff.rfl

/-- The ten row blocks tile the array: row n lies in block n / 10000. -/
theorem cover4 (i : S100000x32.Idx) :
    ∃ t : Fin cfg4.N, (cfg4.win 2).flush t = true ∧ i ∈ ((cfg4.win 2).blk t).view.set := by
  have hi0 : (i 0).val < 100000 := idx2_lt0 i
  have hi1 : (i 1).val < 32 := idx2_lt1 i
  have hN : cfg4.N = 10 := N_4
  have ht : (i 0).val / 10000 < cfg4.N := by rw [hN]; omega
  have e := idx4 ⟨(i 0).val / 10000, ht⟩
  have e4 : win4_2.index ⟨(i 0).val / 10000, ht⟩ (0 : Fin 2) = (i 0).val / 10000 := e.2.2.2.2.1
  have e5 : win4_2.index ⟨(i 0).val / 10000, ht⟩ (1 : Fin 2) = 0 := e.2.2.2.2.2
  refine ⟨⟨(i 0).val / 10000, ht⟩, flush4_2 _, ?_⟩
  rw [mem_blk4]
  intro a
  match a with
  | ⟨0, _⟩ =>
    show win4_2.index ⟨(i 0).val / 10000, ht⟩ (0 : Fin 2) * 10000 ≤ (i 0).val ∧ (i 0).val < win4_2.index ⟨(i 0).val / 10000, ht⟩ (0 : Fin 2) * 10000 + 10000
    rw [e4]; omega
  | ⟨1, _⟩ =>
    show win4_2.index ⟨(i 0).val / 10000, ht⟩ (1 : Fin 2) * 32 ≤ (i 1).val ∧ (i 1).val < win4_2.index ⟨(i 0).val / 10000, ht⟩ (1 : Fin 2) * 32 + 32
    rw [e5]; omega

/-- After the region its output array is the product of the two input arrays as the region found them. -/
theorem final4 (c : Dev nD) : (dat4 V c).arrAt 2 cfg4.N = rowsDot (V c main_v86) (V c main_arg7) :=
  (dat4 V c).arrAt_eq_of_cover 2 (rowsDot (V c main_v86) (V c main_arg7)) (fun t _ => flushed4 V c t) cover4

end Cert.KernelIdeal.Dense

end
-- ==== Proof.Bias5.lean ====
/-
  The third layer's epilogue, read off its region.

  The sixth pallas_call adds the bias row b₃ (1 by 32) to every row of the third layer's aggregated array A (100000
  rows of 32), with no clamping, in ten row blocks of 10000 rows: at grid point t the body stores a[p,q] + b[0,q] for
  rows 10000 t … 10000 t + 9999, the casts of the blocks to their own shapes the identity and the broadcast of the bias
  row its column q at every row. The ten blocks tile the rows, so after the region the output array is A[n,q] + b[0,q].
-/
import proofs.«152764_j53214644797577_1_alg».proof.Proof.Gen.KernelIdeal.Frame
import proofs.«152764_j53214644797577_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Dense

open Cert.KernelIdeal Cert.KernelIdeal.Gen

variable (V : (c : Dev nD) → (b : Ref sig .tc) → Buf (Elt Ideal) ((c : Thread nD τ).loc b))

/-! ## Region 5: A + b₃ -/

/-- The body's stored value at (p, q): the block's entry plus the bias row's entry of column q. -/
theorem pay5_apply (a : Vec Ideal S10000x32 .f32) (b : Vec Ideal S1x32 .f32) (p : Fin 10000) (q : Fin 32) :
    k5_pay1 a b (ix2 p q) = a (ix2 p q) + b (ix2 (0 : Fin 1) q) := by
  unfold k5_pay1
  rw [shapeCast_self, shapeCast_self]
  show a (ix2 p q) + broadcastTo S10000x32 b broadcasts_S1x32_S10000x32 (ix2 p q) = _
  rw [broadcastTo_1b_ab_apply]

/-- Where the three windows' blocks sit at a grid point: the two row windows at block row t, the bias row at the origin. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The row window's block at point t is rows 10000 t … 10000 t + 9999 of its array. -/
theorem ablk5 (c : Dev nD) (t : Fin cfg5.N) (y : S10000x32.Idx) (i : S100000x32.Idx)
    (h0 : (i 0).val = t.val * 10000 + (y 0).val) (h1 : (i 1).val = (y 1).val) :
    iblk5 V c 0 t y = V c main_v123 i := by
  obtain ⟨e0, e1, -⟩ := idx5 t
  show V c main_v123 (((cfg5.win 0).blk t).view.emb y) = V c main_v123 i
  congr 1
  funext a; apply Fin.ext
  match a with
  | ⟨0, _⟩ => show win5_0.index t (0 : Fin 2) * 10000 + 1 * (y 0).val = (i 0).val; omega
  | ⟨1, _⟩ => show win5_0.index t (1 : Fin 2) * 32 + 1 * (y 1).val = (i 1).val; omega

/-- The bias window's block at every point is the whole bias row. -/
theorem bblk5 (c : Dev nD) (t : Fin cfg5.N) (y : S1x32.Idx) :
    iblk5 V c 1 t y = V c main_v124 y := by
  obtain ⟨-, -, e2, e3, -⟩ := idx5 t
  show V c main_v124 (((cfg5.win 1).blk t).view.emb y) = V c main_v124 y
  congr 1
  funext a; apply Fin.ext
  match a with
  | ⟨0, _⟩ => show win5_1.index t (0 : Fin 2) * 1 + 1 * (y 0).val = (y 0).val; omega
  | ⟨1, _⟩ => show win5_1.index t (1 : Fin 2) * 32 + 1 * (y 1).val = (y 1).val; omega

/-- What point t writes back is block t of the biased array of the two arrays as the region finds them. -/
theorem flushed5 (c : Dev nD) (t : Fin cfg5.N) :
    (dat5 V c).flushed 2 t = ((cfg5.win 2).blk t).view.read (Elt Ideal) (addRow (V c main_v123) (V c main_v124)) := by
  show (cfg5.win 2).cut (grid5.coords t) ((dat5 V c).after 2 t) = _
  rw [after5_2]
  unfold out5_2
  rw [View.canon_unit_zero hz]
  simp only [View.ld_unit_zero (S := S10000x32) hz, View.ld_unit_zero (S := S1x32) hz]
  obtain ⟨-, -, -, -, e4, e5⟩ := idx5 t
  funext j
  obtain ⟨p, q, rfl⟩ : ∃ (p : Fin 10000) (q : Fin 32), j = ix2 p q := ⟨j 0, j 1, eq_ix2 j⟩
  show k5_pay1 (iblk5 V c 0 t) (iblk5 V c 1 t) (ix2 p q) = addRow (V c main_v123) (V c main_v124) (((cfg5.win 2).blk t).view.emb (ix2 p q))
  rw [pay5_apply]
  unfold addRow
  have hq : ix2 (0 : Fin 1) (⟨((((cfg5.win 2).blk t).view.emb (ix2 p q)) 1).val, idx2_lt1 _⟩ : Fin 32) = ix2 (0 : Fin 1) q := by
    funext a; apply Fin.ext
    match a with
    | ⟨0, _⟩ => rfl
    | ⟨1, _⟩ => show win5_2.index t (1 : Fin 2) * 32 + 1 * q.val = q.val; omega
  rw [hq, bblk5 V c t (ix2 (0 : Fin 1) q), ablk5 V c t (ix2 p q) (((cfg5.win 2).blk t).view.emb (ix2 p q)) ?_ ?_]
  · show win5_2.index t (0 : Fin 2) * 10000 + 1 * p.val = t.val * 10000 + p.val; omega
  · show win5_2.index t (1 : Fin 2) * 32 + 1 * q.val = q.val; omega

/-- An index of the output array lies in point t's block iff each coordinate lies in the block's range on its axis. -/
theorem mem_blk5 (t : Fin cfg5.N) (i : S100000x32.Idx) :
    i ∈ ((cfg5.win 2).blk t).view.set ↔ ∀ a : Fin 2, win5_2.index t a * S10000x32.size a ≤ (i a).val ∧ (i a).val < win5_2.index t a * S10000x32.size a + S10000x32.size a := by
  show i ∈ ((View.whole main_v125).slice (win5_2.rect t)).set ↔ _
  rw [View.set_slice_whole, Rect.mem_set_unit]
  exact Iff.rfl

/-- The ten row blocks tile the array: row n lies in block n / 10000. -/
theorem cover5 (i : S100000x32.Idx) :
    ∃ t : Fin cfg5.N, (cfg5.win 2).flush t = true ∧ i ∈ ((cfg5.win 2).blk t).view.set := by
  have hi0 : (i 0).val < 100000 := idx2_lt0 i
  have hi1 : (i 1).val < 32 := idx2_lt1 i
  have hN : cfg5.N = 10 := N_5
  have ht : (i 0).val / 10000 < cfg5.N := by rw [hN]; omega
  have e := idx5 ⟨(i 0).val / 10000, ht⟩
  have e4 : win5_2.index ⟨(i 0).val / 10000, ht⟩ (0 : Fin 2) = (i 0).val / 10000 := e.2.2.2.2.1
  have e5 : win5_2.index ⟨(i 0).val / 10000, ht⟩ (1 : Fin 2) = 0 := e.2.2.2.2.2
  refine ⟨⟨(i 0).val / 10000, ht⟩, flush5_2 _, ?_⟩
  rw [mem_blk5]
  intro a
  match a with
  | ⟨0, _⟩ =>
    show win5_2.index ⟨(i 0).val / 10000, ht⟩ (0 : Fin 2) * 10000 ≤ (i 0).val ∧ (i 0).val < win5_2.index ⟨(i 0).val / 10000, ht⟩ (0 : Fin 2) * 10000 + 10000
    rw [e4]; omega
  | ⟨1, _⟩ =>
    show win5_2.index ⟨(i 0).val / 10000, ht⟩ (1 : Fin 2) * 32 ≤ (i 1).val ∧ (i 1).val < win5_2.index ⟨(i 0).val / 10000, ht⟩ (1 : Fin 2) * 32 + 32
    rw [e5]; omega

/-- After the region its output array is the biased array of the two input arrays as the region found them. -/
theorem final5 (c : Dev nD) : (dat5 V c).arrAt 2 cfg5.N = addRow (V c main_v123) (V c main_v124) :=
  (dat5 V c).arrAt_eq_of_cover 2 (addRow (V c main_v123) (V c main_v124)) (fun t _ => flushed5 V c t) cover5

end Cert.KernelIdeal.Dense

end
-- ==== Proof.Dense6.lean ====
/-
  The final linear layer, read off its region.

  The seventh pallas_call multiplies the third layer's output H₃ (100000 rows of 32) by the weight matrix W_f (32 by 32)
  and adds the bias row b_f (1 by 32) to every row, in ten row blocks of 10000 rows: at grid point t the body reads rows
  10000 t … 10000 t + 9999 of H₃, all of W_f and the one bias row, and stores ∑ₖ h[p,k]·w[k,q] + b[0,q] — the cast of the
  row block to its own shape the identity, the two roundings to bf16 the identity over the extended reals, the product
  into a zero accumulator the sum over the shared axis, the broadcast of the bias row its column q at every row. So what
  point t writes back is rows 10000 t … 10000 t + 9999 of the one array ∑ₖ H₃[n,k]·W_f[k,q] + b_f[0,q]; the ten blocks
  tile the rows, hence after the region the output array is that array.
-/
import proofs.«152764_j53214644797577_1_alg».proof.Proof.Gen.KernelIdeal.Frame
import proofs.«152764_j53214644797577_1_alg».proof.Proof.LibMatmul
import proofs.«152764_j53214644797577_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Dense

open Cert.KernelIdeal Cert.KernelIdeal.Gen

variable (V : (c : Dev nD) → (b : Ref sig .tc) → Buf (Elt Ideal) ((c : Thread nD τ).loc b))

/-! ## Region 6: H₃ · W_f + b_f -/

/-- The body's stored value at (p, q): the product's entry, a sum over the shared axis, plus the bias row's entry of column q. -/
theorem pay6_apply (l : Vec Ideal S10000x32 .f32) (r : Vec Ideal S32x32 .f32) (b : Vec Ideal S1x32 .f32) (p : Fin 10000) (q : Fin 32) :
    k6_pay1 l r b (ix2 p q) = (∑ k : Fin 32, l (ix2 p k) * r (ix2 k q)) + b (ix2 (0 : Fin 1) q) := by
  unfold k6_pay1
  rw [shapeCast_self, shapeCast_self]
  show matmul (F := Ideal) dot_S10000x32_S32x32_S10000x32_1_0_0_1_n_n none (truncf .bf16 l bitsLt_bf16_f32) (truncf .bf16 r bitsLt_bf16_f32)
      (constant S10000x32 .f32 0x00000000#32) (ix2 p q) + broadcastTo S10000x32 b broadcasts_S1x32_S10000x32 (ix2 p q) = _
  rw [broadcastTo_1b_ab_apply]
  exact congrArg (· + b (ix2 (0 : Fin 1) q)) (Cert.LibMatmul.matmul_zero_ix2 _ none _ _ p q)

/-- Where the four windows' blocks sit at a grid point: the two row windows at block row t, the weights and the bias row at the origin. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The row window's block at point t is rows 10000 t … 10000 t + 9999 of its array. -/
theorem xblk6 (c : Dev nD) (t : Fin cfg6.N) (y : S10000x32.Idx) (i : S100000x32.Idx)
    (h0 : (i 0).val = t.val * 10000 + (y 0).val) (h1 : (i 1).val = (y 1).val) :
    iblk6 V c 0 t y = V c main_v125 i := by
  obtain ⟨e0, e1, -⟩ := idx6 t
  show V c main_v125 (((cfg6.win 0).blk t).view.emb y) = V c main_v125 i
  congr 1
  funext a; apply Fin.ext
  match a with
  | ⟨0, _⟩ => show win6_0.index t (0 : Fin 2) * 10000 + 1 * (y 0).val = (i 0).val; omega
  | ⟨1, _⟩ => show win6_0.index t (1 : Fin 2) * 32 + 1 * (y 1).val = (i 1).val; omega

/-- The weight window's block at every point is the whole weight matrix. -/
theorem wblk6 (c : Dev nD) (t : Fin cfg6.N) (y : S32x32.Idx) :
    iblk6 V c 1 t y = V c main_arg9 y := by
  obtain ⟨-, -, e2, e3, -⟩ := idx6 t
  show V c main_arg9 (((cfg6.win 1).blk t).view.emb y) = V c main_arg9 y
  congr 1
  funext a; apply Fin.ext
  match a with
  | ⟨0, _⟩ => show win6_1.index t (0 : Fin 2) * 32 + 1 * (y 0).val = (y 0).val; omega
  | ⟨1, _⟩ => show win6_1.index t (1 : Fin 2) * 32 + 1 * (y 1).val = (y 1).val; omega

/-- The bias window's block at every point is the whole bias row. -/
theorem bblk6 (c : Dev nD) (t : Fin cfg6.N) (y : S1x32.Idx) :
    iblk6 V c 2 t y = V c main_v126 y := by
  obtain ⟨-, -, -, -, e4, e5, -⟩ := idx6 t
  show V c main_v126 (((cfg6.win 2).blk t).view.emb y) = V c main_v126 y
  congr 1
  funext a; apply Fin.ext
  match a with
  | ⟨0, _⟩ => show win6_2.index t (0 : Fin 2) * 1 + 1 * (y 0).val = (y 0).val; omega
  | ⟨1, _⟩ => show win6_2.index t (1 : Fin 2) * 32 + 1 * (y 1).val = (y 1).val; omega

/-- What point t writes back is block t of the product plus the bias row, of the three arrays as the region finds them. -/
theorem flushed6 (c : Dev nD) (t : Fin cfg6.N) :
    (dat6 V c).flushed 3 t = ((cfg6.win 3).blk t).view.read (Elt Ideal) (addRow (rowsDot (V c main_v125) (V c main_arg9)) (V c main_v126)) := by
  show (cfg6.win 3).cut (grid6.coords t) ((dat6 V c).after 3 t) = _
  rw [after6_3]
  unfold out6_3
  rw [View.canon_unit_zero hz]
  simp only [View.ld_unit_zero (S := S10000x32) hz, View.ld_unit_zero (S := S32x32) hz, View.ld_unit_zero (S := S1x32) hz]
  obtain ⟨-, -, -, -, -, -, e6, e7⟩ := idx6 t
  funext j
  obtain ⟨p, q, rfl⟩ : ∃ (p : Fin 10000) (q : Fin 32), j = ix2 p q := ⟨j 0, j 1, eq_ix2 j⟩
  show k6_pay1 (iblk6 V c 0 t) (iblk6 V c 1 t) (iblk6 V c 2 t) (ix2 p q)
    = addRow (rowsDot (V c main_v125) (V c main_arg9)) (V c main_v126) (((cfg6.win 3).blk t).view.emb (ix2 p q))
  rw [pay6_apply]
  unfold addRow rowsDot
  have hq : (⟨((((cfg6.win 3).blk t).view.emb (ix2 p q)) 1).val, idx2_lt1 _⟩ : Fin 32) = q := by
    apply Fin.ext
    show win6_3.index t (1 : Fin 2) * 32 + 1 * q.val = q.val; omega
  rw [hq, bblk6 V c t (ix2 (0 : Fin 1) q)]
  refine congrArg (· + V c main_v126 (ix2 (0 : Fin 1) q)) (Finset.sum_congr rfl fun k _ => ?_)
  rw [wblk6 V c t (ix2 k q)]
  rw [xblk6 V c t (ix2 p k) (ix2 ⟨((((cfg6.win 3).blk t).view.emb (ix2 p q)) 0).val, idx2_lt0 _⟩ k) ?_ rfl]
  show win6_3.index t (0 : Fin 2) * 10000 + 1 * p.val = t.val * 10000 + p.val; omega

/-- An index of the output array lies in point t's block iff each coordinate lies in the block's range on its axis. -/
theorem mem_blk6 (t : Fin cfg6.N) (i : S100000x32.Idx) :
    i ∈ ((cfg6.win 3).blk t).view.set ↔ ∀ a : Fin 2, win6_3.index t a * S10000x32.size a ≤ (i a).val ∧ (i a).val < win6_3.index t a * S10000x32.size a + S10000x32.size a := by
  show i ∈ ((View.whole main_v127).slice (win6_3.rect t)).set ↔ _
  rw [View.set_slice_whole, Rect.mem_set_unit]
  exact Iff.rfl

/-- The ten row blocks tile the array: row n lies in block n / 10000. -/
theorem cover6 (i : S100000x32.Idx) :
    ∃ t : Fin cfg6.N, (cfg6.win 3).flush t = true ∧ i ∈ ((cfg6.win 3).blk t).view.set := by
  have hi0 : (i 0).val < 100000 := idx2_lt0 i
  have hi1 : (i 1).val < 32 := idx2_lt1 i
  have hN : cfg6.N = 10 := N_6
  have ht : (i 0).val / 10000 < cfg6.N := by rw [hN]; omega
  have e := idx6 ⟨(i 0).val / 10000, ht⟩
  have e6 : win6_3.index ⟨(i 0).val / 10000, ht⟩ (0 : Fin 2) = (i 0).val / 10000 := e.2.2.2.2.2.2.1
  have e7 : win6_3.index ⟨(i 0).val / 10000, ht⟩ (1 : Fin 2) = 0 := e.2.2.2.2.2.2.2
  refine ⟨⟨(i 0).val / 10000, ht⟩, flush6_3 _, ?_⟩
  rw [mem_blk6]
  intro a
  match a with
  | ⟨0, _⟩ =>
    show win6_3.index ⟨(i 0).val / 10000, ht⟩ (0 : Fin 2) * 10000 ≤ (i 0).val ∧ (i 0).val < win6_3.index ⟨(i 0).val / 10000, ht⟩ (0 : Fin 2) * 10000 + 10000
    rw [e6]; omega
  | ⟨1, _⟩ =>
    show win6_3.index ⟨(i 0).val / 10000, ht⟩ (1 : Fin 2) * 32 ≤ (i 1).val ∧ (i 1).val < win6_3.index ⟨(i 0).val / 10000, ht⟩ (1 : Fin 2) * 32 + 32
    rw [e7]; omega

/-- After the region its output array is the product plus the bias row, of the three input arrays as the region found them. -/
theorem final6 (c : Dev nD) : (dat6 V c).arrAt 3 cfg6.N = addRow (rowsDot (V c main_v125) (V c main_arg9)) (V c main_v126) :=
  (dat6 V c).arrAt_eq_of_cover 3 (addRow (rowsDot (V c main_v125) (V c main_arg9)) (V c main_v126)) (fun t _ => flushed6 V c t) cover6

end Cert.KernelIdeal.Dense

end
-- ==== Proof.Track3.lean ====
/-
  The third layer and the final linear layer, boundary by boundary.

  From the second layer's activations H₂ to the result: the degrees, their inverse square roots and the edges'
  normalisation a third time, the product H₂·W₃ (the fifth region's ten row blocks are the whole product), its
  aggregation over the edges, the aggregate plus b₃ (the sixth region's blocks, no clamping), and that array times
  W_f plus b_f (the seventh region's blocks): the result buffer after the last region holds the reference's result
  stage of the launch arguments.
-/
import proofs.«152764_j53214644797577_1_alg».proof.Proof.Gen.KernelIdeal.Frame
import proofs.«152764_j53214644797577_1_alg».proof.Proof.Track2
import proofs.«152764_j53214644797577_1_alg».proof.Proof.HostL3
import proofs.«152764_j53214644797577_1_alg».proof.Proof.Dense4
import proofs.«152764_j53214644797577_1_alg».proof.Proof.Bias5
import proofs.«152764_j53214644797577_1_alg».proof.Proof.Dense6
import proofs.«152764_j53214644797577_1_alg».proof.Proof.RefDot
import proofs.«152764_j53214644797577_1_alg».proof.Proof.RefBias

set_option maxRecDepth 16384

noncomputable section

open Idealize.ShloMosaic Idealize.ShloMosaic.TcCoe Idealize.SL.Sem Idealize.ShloMosaic.StableHlo
open Idealize.ShloMosaic.Pipeline (Dat)

namespace Cert.KernelIdeal.Track

open Cert.KernelIdeal Cert.KernelIdeal.Gen Cert.KernelIdeal.Host Cert.KernelIdeal.Dense
open Cert.ReferenceIdeal.Read Cert.ReferenceIdeal.Args Cert.ReferenceIdeal.Dense

variable (m : (ℓ : Loc nD τ sig) → Buf (Elt Ideal) ℓ) (ρ : Dev nD → PrngReg) (c : Dev nD)

/-! ## The edges' normalisation a third time -/

theorem w12_v3 : W12 m ρ c (Proc.devRef .tc main_v3) = val_main_v3 (F := Ideal) (a1 m c) :=
  (st12 m ρ c main_v3 (by decide)).trans (w3_v3 m ρ c)
theorem w12_v6 : W12 m ρ c (Proc.devRef .tc main_v6) = val_main_v6 (F := Ideal) (a1 m c) :=
  (st12 m ρ c main_v6 (by decide)).trans (w3_v6 m ρ c)
theorem w12_v8 : W12 m ρ c (Proc.devRef .tc main_v8) = val_main_v8 (F := Ideal) (a2 m c) :=
  (st12 m ρ c main_v8 (by decide)).trans (w3_v8 m ρ c)

theorem w13_v91 : W13 m ρ c (Proc.devRef .tc main_v91) = val_main_v95 (F := Ideal) (a1 m c) (a2 m c) :=
  s4_v91 (W12 m ρ c) (a1 m c) (a2 m c) (w12_v6 m ρ c) (w12_v8 m ρ c)
theorem w13_v92 : W13 m ρ c (Proc.devRef .tc main_v92) = val_main_v96 (F := Ideal) (a1 m c) (a2 m c) :=
  s4_v92 (W12 m ρ c) (a1 m c) (a2 m c) (w12_v6 m ρ c) (w12_v8 m ρ c)
theorem w13_cst_21 : W13 m ρ c (Proc.devRef .tc main_cst_21) = val_main_cst_21 (F := Ideal) := s4_cst_21 (W12 m ρ c)

theorem w14_v93 : W14 m ρ c (Proc.devRef .tc main_v93) = val_main_v97 (F := Ideal) (a1 m c) (a2 m c) :=
  s41_v93 (W13 m ρ c) (a1 m c) (a2 m c) (w13_v91 m ρ c) (w13_v92 m ρ c) (w13_cst_21 m ρ c)

/-- A long-lived buffer passes the three stretches. -/
theorem k15 (b : Ref sig .tc) (hb : b ∈ kept) : W15 m ρ c (Proc.devRef .tc b) = W12 m ρ c (Proc.devRef .tc b) :=
  ((keep4_2 (W14 m ρ c) b hb).trans (keep4_1 (W13 m ρ c) b hb)).trans (keep4 (W12 m ρ c) b hb)
/-- …and so do the first two. -/
theorem k14 (b : Ref sig .tc) (hb : b ∈ kept) : W14 m ρ c (Proc.devRef .tc b) = W12 m ρ c (Proc.devRef .tc b) :=
  (keep4_1 (W13 m ρ c) b hb).trans (keep4 (W12 m ρ c) b hb)

theorem w15_v109 : W15 m ρ c (Proc.devRef .tc main_v109) = val_main_v113 (F := Ideal) (a1 m c) (a2 m c) :=
  s42_v109 (W14 m ρ c) (a1 m c) (a2 m c) ((k14 m ρ c main_v3 (by decide)).trans (w12_v3 m ρ c))
    ((k14 m ρ c main_v6 (by decide)).trans (w12_v6 m ρ c)) ((k14 m ρ c main_v8 (by decide)).trans (w12_v8 m ρ c)) (w14_v93 m ρ c)

theorem st15 (b : Ref sig .tc) (hb : b ∈ stable) : W15 m ρ c (Proc.devRef .tc b) = W3 m ρ c (Proc.devRef .tc b) :=
  (k15 m ρ c b (stable_sub_kept b hb)).trans (st12 m ρ c b hb)

theorem w15_v86 : W15 m ρ c (Proc.devRef .tc main_v86)
    = val_main_v90 (F := Ideal) (a0 m c) (a1 m c) (a2 m c) (a3 m c) (a4 m c) (a5 m c) (a6 m c) :=
  (k15 m ρ c main_v86 (by decide)).trans (w12_v86 m ρ c)

/-! ## The fifth region: H₂ · W₃ -/

/-- After the fifth region its output array is the reference's third product. -/
theorem w16_v110 : W16 m ρ c (Proc.devRef .tc main_v110)
    = val_main_v114 (F := Ideal) (a0 m c) (a1 m c) (a2 m c) (a3 m c) (a4 m c) (a5 m c) (a6 m c) (a7 m c) := by
  refine (W16_arr m ρ c 2).trans ((final4 (V15 m ρ) c).trans ?_)
  rw [show V15 m ρ c main_v86 = _ from w15_v86 m ρ c,
    show V15 m ρ c main_arg7 = a7 m c from (st15 m ρ c main_arg7 (by decide)).trans (w3_arg m ρ c main_arg7 (by decide))]
  exact (dot3 _ _ _ _ _ _ _ _).symm

/-- The fifth region leaves every long-lived buffer as it found it. -/
theorem st16 (b : Ref sig .tc) (hb : b ∈ stable) : W16 m ρ c (Proc.devRef .tc b) = W3 m ρ c (Proc.devRef .tc b) := by
  refine Eq.trans ?_ (st15 m ρ c b hb)
  simp only [stable, List.mem_cons, List.mem_nil_iff, or_false] at hb
  rcases hb with rfl | rfl | rfl | rfl | rfl | rfl | rfl | rfl | rfl | rfl | rfl | rfl | rfl | rfl
  all_goals first
    | exact W16_of_ne m ρ c _ (by decide)
    | exact (W16_arr m ρ c 1).trans (((dat4 (V15 m ρ) c).arrAt_in 1 rfl _).trans (A_eq4 (V15 m ρ) c 1))

theorem w16_v109 : W16 m ρ c (Proc.devRef .tc main_v109) = val_main_v113 (F := Ideal) (a1 m c) (a2 m c) :=
  (W16_of_ne m ρ c main_v109 (by decide)).trans (w15_v109 m ρ c)

/-! ## The aggregation and the bias row -/

theorem w17_v123 : W17 m ρ c (Proc.devRef .tc main_v123)
    = val_main_v127 (F := Ideal) (a0 m c) (a1 m c) (a2 m c) (a3 m c) (a4 m c) (a5 m c) (a6 m c) (a7 m c) :=
  s5_v123 (W16 m ρ c) (a0 m c) (a1 m c) (a2 m c) (a3 m c) (a4 m c) (a5 m c) (a6 m c) (a7 m c)
    ((st16 m ρ c main_v3 (by decide)).trans (w3_v3 m ρ c)) ((st16 m ρ c main_v6 (by decide)).trans (w3_v6 m ρ c))
    (w16_v109 m ρ c) (w16_v110 m ρ c)

theorem w17_v124 : W17 m ρ c (Proc.devRef .tc main_v124) = shapeCast S1x32 (a8 m c) shapeCasts_S32_S1x32 :=
  s5_v124 (W16 m ρ c) (a8 m c) ((st16 m ρ c main_arg8 (by decide)).trans (w3_arg m ρ c main_arg8 (by decide)))

theorem st17 (b : Ref sig .tc) (hb : b ∈ stable) : W17 m ρ c (Proc.devRef .tc b) = W3 m ρ c (Proc.devRef .tc b) :=
  (keep5 (W16 m ρ c) b (stable_sub_kept b hb)).trans (st16 m ρ c b hb)

/-! ## The sixth region: aggregate + b₃ -/

/-- After the sixth region its output array is the reference's third layer H₃. -/
theorem w18_v125 : W18 m ρ c (Proc.devRef .tc main_v125)
    = val_main_v130 (F := Ideal) (a0 m c) (a1 m c) (a2 m c) (a3 m c) (a4 m c) (a5 m c) (a6 m c) (a7 m c) (a8 m c) := by
  refine (W18_arr m ρ c 2).trans ((final5 (V17 m ρ) c).trans ?_)
  rw [show V17 m ρ c main_v123 = _ from w17_v123 m ρ c, show V17 m ρ c main_v124 = _ from w17_v124 m ρ c]
  exact (bias3 _ _ _ _ _ _ _ _ _ _).symm

/-- The sixth region writes its output array only; no long-lived buffer is among its arrays. -/
theorem st18 (b : Ref sig .tc) (hb : b ∈ stable) : W18 m ρ c (Proc.devRef .tc b) = W3 m ρ c (Proc.devRef .tc b) := by
  refine Eq.trans ?_ (st17 m ρ c b hb)
  simp only [stable, List.mem_cons, List.mem_nil_iff, or_false] at hb
  rcases hb with rfl | rfl | rfl | rfl | rfl | rfl | rfl | rfl | rfl | rfl | rfl | rfl | rfl | rfl
  all_goals exact W18_of_ne m ρ c _ (by decide)

/-! ## The final bias row, and the seventh region: H₃ · W_f + b_f -/

theorem w19_v126 : W19 m ρ c (Proc.devRef .tc main_v126) = shapeCast S1x32 (a10 m c) shapeCasts_S32_S1x32 :=
  s6_v126 (W18 m ρ c) (a10 m c) ((st18 m ρ c main_arg10 (by decide)).trans (w3_arg m ρ c main_arg10 (by decide)))

theorem w19_v125 : W19 m ρ c (Proc.devRef .tc main_v125)
    = val_main_v130 (F := Ideal) (a0 m c) (a1 m c) (a2 m c) (a3 m c) (a4 m c) (a5 m c) (a6 m c) (a7 m c) (a8 m c) :=
  (keep6 (W18 m ρ c) main_v125 (by decide)).trans (w18_v125 m ρ c)

theorem w19_arg9 : W19 m ρ c (Proc.devRef .tc main_arg9) = a9 m c :=
  (keep6 (W18 m ρ c) main_arg9 (by decide)).trans ((st18 m ρ c main_arg9 (by decide)).trans (w3_arg m ρ c main_arg9 (by decide)))

/-- After the last region the result buffer holds the reference's result stage of the launch arguments. -/
theorem w20_v127 : W20 m ρ c (Proc.devRef .tc main_v127)
    = val_main_v134 (F := Ideal) (a0 m c) (a1 m c) (a2 m c) (a3 m c) (a4 m c) (a5 m c) (a6 m c) (a7 m c) (a8 m c) (a9 m c) (a10 m c) := by
  refine (W20_arr m ρ c 3).trans ((final6 (V19 m ρ) c).trans ?_)
  rw [show V19 m ρ c main_v125 = _ from w19_v125 m ρ c, show V19 m ρ c main_arg9 = _ from w19_arg9 m ρ c,
    show V19 m ρ c main_v126 = _ from w19_v126 m ρ c]
  rw [← dot4]
  exact (linear _ _ _ _ _ _ _ _ _ _ _ _).symm

end Cert.KernelIdeal.Track

end
-- ==== Proof.lean ====
/-
  The kernel and its reference are one function of the arguments over the extended reals.

  The network is three graph-convolution layers and a final linear layer over 100000 nodes and 1600000 weighted edges,
  to which one self loop per node is appended with weight one. A layer maps node features H to
  Â·(H·W) + b, where Â scatters, into each edge's target, the row of H·W at the edge's source scaled by
  d[source]·w·d[target], d the inverse square root of a node's summed incoming weight (zero where that sum is not
  positive); the first two layers take the larger of each entry and zero afterwards, and the last layer is H·W_f + b_f.

  The reference computes all of this with host operations. The kernel computes the same host operations for the index
  vectors, the degrees, the normalisation, the gathers and the scatter-additions, and replaces each dense product and
  each bias epilogue by a pallas_call over ten blocks of 10000 rows. Over the extended reals the roundings to bf16 in
  front of each product are the identity and a product into a zero accumulator is the sum ∑ₖ h[p,k]·w[k,q], so each
  pallas_call leaves in its output array exactly the reference's operation of its input arrays: the blocks are the
  restrictions of that one array to the ten row ranges, which tile the rows. Reading the contents of the buffers
  boundary by boundary through @main, the result buffer ends at the reference's result stage of the launch arguments.
  No algebraic law beyond the definitions is needed — the two programs add and multiply the same numbers in the same
  association —, so the finiteness of the inputs is never used.

  The three frames are the generated ones (the reference's is its generated run with the result dropped); the
  idealization rewrote nothing, so there is nothing to preserve; the two runs are the kernel's run with its result
  named and the reference's generated run.
-/
import proofs.«152764_j53214644797577_1_alg».proof.Defs
import proofs.«152764_j53214644797577_1_alg».proof.Proof.Gen.Kernel
import proofs.«152764_j53214644797577_1_alg».proof.Proof.Gen.Kernel.Skeleton
import proofs.«152764_j53214644797577_1_alg».proof.Proof.Gen.Kernel.Launch
import proofs.«152764_j53214644797577_1_alg».proof.Proof.Gen.Kernel.Points
import proofs.«152764_j53214644797577_1_alg».proof.Proof.Gen.Kernel.Frame
import proofs.«152764_j53214644797577_1_alg».proof.Proof.Gen.KernelIdeal
import proofs.«152764_j53214644797577_1_alg».proof.Proof.Gen.KernelIdeal.Skeleton
import proofs.«152764_j53214644797577_1_alg».proof.Proof.Gen.KernelIdeal.Launch
import proofs.«152764_j53214644797577_1_alg».proof.Proof.Gen.KernelIdeal.Points
import proofs.«152764_j53214644797577_1_alg».proof.Proof.Gen.KernelIdeal.Frame
import proofs.«152764_j53214644797577_1_alg».proof.Proof.Gen.ReferenceIdeal
import proofs.«152764_j53214644797577_1_alg».proof.Proof.Gen.ReferenceIdeal.Run
import proofs.«152764_j53214644797577_1_alg».proof.Proof.Gen.ReferenceIdeal.Read
import proofs.«152764_j53214644797577_1_alg».proof.Proof.Gen.Pre_finite_inputs
import proofs.«152764_j53214644797577_1_alg».proof.Proof.KernelRun
import proofs.«152764_j53214644797577_1_alg».proof.Proof.Track3
import Idealize.ShloMosaic.Adequacy
import Idealize.ShloMosaic.Init

set_option maxRecDepth 16384

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the reference's result stage of those arguments in
    their result buffers: the kernel by the boundary-by-boundary reading of its buffers, the reference by its run. -/
theorem algebraic : Cert.algebraic_KernelIdeal_ReferenceIdeal := by
  intro m ρ m' ρ' _ hagree
  refine ⟨fun c => Cert.KernelIdeal.Gen.W20 m ρ c (Proc.devRef .tc Cert.KernelIdeal.main_v127),
    Cert.KernelIdeal.Track.run_named (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v134 m' c = Cert.KernelIdeal.Gen.W20 m ρ c (Proc.devRef .tc Cert.KernelIdeal.main_v127)
  rw [Cert.ReferenceIdeal.Read.val_main_v134_eq, Cert.KernelIdeal.Track.w20_v127 m ρ c]
  obtain ⟨e0, e1, e2, e3, e4, e5, e6, e7, e8, e9, e10⟩ := hagree c
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
